-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x3200000 : Shape := ⟨2, ![2, 3200000]⟩
abbrev S1000000 : Shape := ⟨1, ![1000000]⟩
abbrev S100x8 : Shape := ⟨2, ![100, 8]⟩
abbrev S8 : Shape := ⟨1, ![8]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x8 : S_.BroadcastsInDim S100x8 (![] : Fin 0 → Fin S100x8.rank)
  reducesTo_S100x8_S_d0_1 : S100x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg8 : FVec F S100x8 .f32) (main_arg9 : FVec F S8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S100x8 .f32 := Host.absf main_arg8
  let main_cst_6 : FVec F S_ .f32 := constant S_ .f32 0x7F800000#32
  let main_v20 : FVec F S100x8 .f32 := broadcastInDim S100x8 ![] bcast_S_S100x8 main_cst_6
  let main_v21 : IVec S100x8 1 := cmpf .olt main_v19 main_v20
  let main_c_7 : IVec S_ 1 := constantI S_ 1 1#1
  let main_v22 : IVec S_ 1 := (fun x v => Host.reduce IntOp.andi x v reducesTo_S100x8_S_d0_1 h_S_) main_v21 main_c_7
  let main_v23 : IVec S_ 1 := andi main_v18 main_v22
  let main_v24 : FVec F S8 .f32 := Host.absf main_arg9
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S100000x100 .f32) (main_arg1 : IVec S2x3200000 32) (main_arg2 : FVec F S100000x100 .f32) (main_arg3 : IVec S2x3200000 32) (main_arg4 : IVec S1000000 32) (main_arg5 : IVec S1000000 32) (main_arg6 : FVec F S100x8 .f32) (main_arg7 : FVec F S8 .f32) (main_arg8 : FVec F S100x8 .f32) (main_arg9 : FVec F S8 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100000x100 .f32 := Host.absf main_arg2
  let main_cst_0 : FVec F S_ .f32 := constant S_ .f32 0x7F800000#32
  let main_v5 : FVec F S100000x100 .f32 := broadcastInDim S100000x100 ![] bcast_S_S100000x100 main_cst_0
  let main_v6 : IVec S100000x100 1 := cmpf .olt main_v4 main_v5
  let main_c_1 : IVec S_ 1 := constantI S_ 1 1#1
  let main_v7 : IVec S_ 1 := (fun x v => Host.reduce IntOp.andi x v reducesTo_S100000x100_S_d0_1 h_S_) main_v6 main_c_1
  let main_v8 : IVec S_ 1 := andi main_v3 main_v7
  let main_v9 : FVec F S100x8 .f32 := Host.absf main_arg6
  let main_cst_2 : FVec F S_ .f32 := constant S_ .f32 0x7F800000#32
  let main_v10 : FVec F S100x8 .f32 := broadcastInDim S100x8 ![] bcast_S_S100x8 main_cst_2
  let main_v11 : IVec S100x8 1 := cmpf .olt main_v9 main_v10
  let main_c_3 : IVec S_ 1 := constantI S_ 1 1#1
  let main_v12 : IVec S_ 1 := (fun x v => Host.reduce IntOp.andi x v reducesTo_S100x8_S_d0_1 h_S_) main_v11 main_c_3
  let main_v13 : IVec S_ 1 := andi main_v8 main_v12
  let main_v14 : FVec F S8 .f32 := Host.absf main_arg7
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg8 main_arg9 main_v13 main_v16
-- ==== Kernel.lean ====
abbrev S100000x100 : Shape := ⟨2, ![100000, 100]⟩
abbrev S2x3200000 : Shape := ⟨2, ![2, 3200000]⟩
abbrev S1000000 : Shape := ⟨1, ![1000000]⟩
abbrev S100x8 : Shape := ⟨2, ![100, 8]⟩
abbrev S8 : Shape := ⟨1, ![8]⟩
abbrev S100000x8 : Shape := ⟨2, ![100000, 8]⟩
abbrev S10000x100 : Shape := ⟨2, ![10000, 100]⟩
abbrev S10000x8 : Shape := ⟨2, ![10000, 8]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x8 : Shape := ⟨2, ![3200000, 8]⟩
abbrev S100000x1 : Shape := ⟨2, ![100000, 1]⟩
abbrev S1x8 : Shape := ⟨2, ![1, 8]⟩
abbrev S1000000x1 : Shape := ⟨2, ![1000000, 1]⟩
abbrev S1000000x8 : Shape := ⟨2, ![1000000, 8]⟩
abbrev S1000064x8 : Shape := ⟨2, ![1000064, 8]⟩
abbrev S62504x128 : Shape := ⟨2, ![62504, 128]⟩
abbrev S128 : Shape := ⟨1, ![128]⟩
abbrev S128x1 : Shape := ⟨2, ![128, 1]⟩
abbrev S16 : Shape := ⟨1, ![16]⟩
abbrev S1x16 : Shape := ⟨2, ![1, 16]⟩
abbrev S128x16 : Shape := ⟨2, ![128, 16]⟩
abbrev S62504x16 : Shape := ⟨2, ![62504, 16]⟩
abbrev S4808x128 : Shape := ⟨2, ![4808, 128]⟩
abbrev S4808x16 : Shape := ⟨2, ![4808, 16]⟩
abbrev S1000064 : Shape := ⟨1, ![1000064]⟩

abbrev nBuf : Space → Nat
  | .hbm => 193
  | .vmem => 27
  | .smem => 0
  | _ => 0

abbrev hbmTy0_0 (i : Nat) : BufTy := match i % 128 with
  | 0 => ⟨S100000x100, .f32⟩
  | 1 => ⟨S2x3200000, .i32⟩
  | 2 => ⟨S100000x100, .f32⟩
  | 3 => ⟨S2x3200000, .i32⟩
  | 4 => ⟨S1000000, .i32⟩
  | 5 => ⟨S1000000, .i32⟩
  | 6 => ⟨S100x8, .f32⟩
  | 7 => ⟨S8, .f32⟩
  | 8 => ⟨S100x8, .f32⟩
  | 9 => ⟨S8, .f32⟩
  | 10 => ⟨S100000x8, .f32⟩
  | 11 => ⟨S100000x8, .f32⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x8, .f32⟩
  | 61 => ⟨S3200000x1, .f32⟩
  | 62 => ⟨S3200000x8, .f32⟩
  | 63 => ⟨S3200000x8, .f32⟩
  | 64 => ⟨S_, .f32⟩
  | 65 => ⟨S100000x8, .f32⟩
  | 66 => ⟨S3200000x1, .i32⟩
  | 67 => ⟨S100000x8, .f32⟩
  | 68 => ⟨S100000, .f32⟩
  | 69 => ⟨S100000x1, .f32⟩
  | 70 => ⟨S100000x8, .f32⟩
  | 71 => ⟨S100000x8, .f32⟩
  | 72 => ⟨S100000x8, .f32⟩
  | 73 => ⟨S1x3200000, .i32⟩
  | 74 => ⟨S3200000, .i32⟩
  | 75 => ⟨S1x3200000, .i32⟩
  | 76 => ⟨S3200000, .i32⟩
  | 77 => ⟨S_, .f32⟩
  | 78 => ⟨S3200000, .f32⟩
  | 79 => ⟨S_, .f32⟩
  | 80 => ⟨S100000, .f32⟩
  | 81 => ⟨S3200000x1, .i32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000, .f32⟩
  | 112 => ⟨S3200000, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x8, .f32⟩
  | 122 => ⟨S3200000x1, .f32⟩
  | 123 => ⟨S3200000x8, .f32⟩
  | 124 => ⟨S3200000x8, .f32⟩
  | 125 => ⟨S_, .f32⟩
  | 126 => ⟨S100000x8, .f32⟩
  | 127 => ⟨S3200000x1, .i32⟩
  | _ => ⟨S100000x100, .f32⟩

abbrev hbmTy0_1 (i : Nat) : BufTy := match i % 128 with
  | 0 => ⟨S100000x8, .f32⟩
  | 1 => ⟨S100000, .f32⟩
  | 2 => ⟨S100000x1, .f32⟩
  | 3 => ⟨S100000x8, .f32⟩
  | 4 => ⟨S100000x8, .f32⟩
  | 5 => ⟨S100000x8, .f32⟩
  | 6 => ⟨S1x8, .f32⟩
  | 7 => ⟨S100000x8, .f32⟩
  | 8 => ⟨S1x8, .f32⟩
  | 9 => ⟨S100000x8, .f32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x8, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x8, .f32⟩
  | 28 => ⟨S_, .i32⟩
  | 29 => ⟨S_, .f32⟩
  | 30 => ⟨S1000064x8, .f32⟩
  | 31 => ⟨S_, .i32⟩
  | 32 => ⟨S_, .f32⟩
  | 33 => ⟨S1000064x8, .f32⟩
  | 34 => ⟨S62504x128, .f32⟩
  | 35 => ⟨S62504x128, .f32⟩
  | 36 => ⟨S128, .i32⟩
  | 37 => ⟨S128x1, .i32⟩
  | 38 => ⟨S16, .i32⟩
  | 39 => ⟨S1x16, .i32⟩
  | 40 => ⟨S_, .i32⟩
  | 41 => ⟨S_, .i32⟩
  | 42 => ⟨S128x1, .i32⟩
  | 43 => ⟨S128x1, .i32⟩
  | 44 => ⟨S128x1, .i32⟩
  | 45 => ⟨S_, .i32⟩
  | 46 => ⟨S128x1, .i32⟩
  | 47 => ⟨S128x1, .i1⟩
  | 48 => ⟨S128x1, .i32⟩
  | 49 => ⟨S128x1, .i32⟩
  | 50 => ⟨S_, .i32⟩
  | 51 => ⟨S128x1, .i32⟩
  | 52 => ⟨S128x1, .i1⟩
  | 53 => ⟨S128x1, .i1⟩
  | 54 => ⟨S_, .i32⟩
  | 55 => ⟨S128x1, .i32⟩
  | 56 => ⟨S128x1, .i32⟩
  | 57 => ⟨S128x1, .i32⟩
  | 58 => ⟨S128x16, .i32⟩
  | 59 => ⟨S128x16, .i32⟩
  | 60 => ⟨S128x16, .i1⟩
  | 61 => ⟨S128x16, .f32⟩
  | 62 => ⟨S62504x16, .f32⟩
  | 63 => ⟨S1000064, .f32⟩
  | 64 => ⟨S1000000, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | .local _ .vmem, ⟨0, _⟩ => ⟨S10000x100, .f32⟩
  | .local _ .vmem, ⟨1, _⟩ => ⟨S10000x100, .f32⟩
  | .local _ .vmem, ⟨2, _⟩ => ⟨S100x8, .f32⟩
  | .local _ .vmem, ⟨3, _⟩ => ⟨S10000x8, .f32⟩
  | .local _ .vmem, ⟨4, _⟩ => ⟨S10000x8, .f32⟩
  | .local _ .vmem, ⟨5, _⟩ => ⟨S10000x100, .f32⟩
  | .local _ .vmem, ⟨6, _⟩ => ⟨S10000x100, .f32⟩
  | .local _ .vmem, ⟨7, _⟩ => ⟨S100x8, .f32⟩
  | .local _ .vmem, ⟨8, _⟩ => ⟨S10000x8, .f32⟩
  | .local _ .vmem, ⟨9, _⟩ => ⟨S10000x8, .f32⟩
  | .local _ .vmem, ⟨10, _⟩ => ⟨S10000x8, .f32⟩
  | .local _ .vmem, ⟨11, _⟩ => ⟨S10000x8, .f32⟩
  | .local _ .vmem, ⟨12, _⟩ => ⟨S1x8, .f32⟩
  | .local _ .vmem, ⟨13, _⟩ => ⟨S10000x8, .f32⟩
  | .local _ .vmem, ⟨14, _⟩ => ⟨S10000x8, .f32⟩
  | .local _ .vmem, ⟨15, _⟩ => ⟨S10000x8, .f32⟩
  | .local _ .vmem, ⟨16, _⟩ => ⟨S10000x8, .f32⟩
  | .local _ .vmem, ⟨17, _⟩ => ⟨S1x8, .f32⟩
  | .local _ .vmem, ⟨18, _⟩ => ⟨S10000x8, .f32⟩
  | .local _ .vmem, ⟨19, _⟩ => ⟨S10000x8, .f32⟩
  | .local _ .vmem, ⟨20, _⟩ => ⟨S4808x128, .f32⟩
  | .local _ .vmem, ⟨21, _⟩ => ⟨S4808x128, .f32⟩
  | .local _ .vmem, ⟨22, _⟩ => ⟨S4808x128, .f32⟩
  | .local _ .vmem, ⟨23, _⟩ => ⟨S4808x128, .f32⟩
  | .local _ .vmem, ⟨24, _⟩ => ⟨S128x16, .f32⟩
  | .local _ .vmem, ⟨25, _⟩ => ⟨S4808x16, .f32⟩
  | .local _ .vmem, ⟨26, _⟩ => ⟨S4808x16, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call1_v0 : Ref sig .tc := ⟨.hbm, 91, rfl⟩
abbrev main_call1_v1 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_19 : Ref sig .tc := ⟨.hbm, 113, rfl⟩
abbrev main_v78 : Ref sig .tc := ⟨.hbm, 114, rfl⟩
abbrev main_v79 : Ref sig .tc := ⟨.hbm, 115, rfl⟩
abbrev main_c_20 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_21 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_22 : Ref sig .tc := ⟨.hbm, 138, rfl⟩
abbrev main_v100 : Ref sig .tc := ⟨.hbm, 139, rfl⟩
abbrev main_v101 : Ref sig .tc := ⟨.hbm, 140, rfl⟩
abbrev main_c_23 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_24 : Ref sig .tc := ⟨.hbm, 147, rfl⟩
abbrev main_v107 : Ref sig .tc := ⟨.hbm, 148, rfl⟩
abbrev main_v108 : Ref sig .tc := ⟨.hbm, 149, rfl⟩
abbrev main_c_25 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c_26 : Ref sig .tc := ⟨.hbm, 156, rfl⟩
abbrev main_call2_v0 : Ref sig .tc := ⟨.hbm, 157, rfl⟩
abbrev main_v114 : Ref sig .tc := ⟨.hbm, 158, rfl⟩
abbrev main_c_27 : Ref sig .tc := ⟨.hbm, 159, rfl⟩
abbrev main_call3_v0 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_c_28 : Ref sig .tc := ⟨.hbm, 168, rfl⟩
abbrev main_call4_v0 : Ref sig .tc := ⟨.hbm, 169, rfl⟩
abbrev main_call4_v1 : Ref sig .tc := ⟨.hbm, 170, rfl⟩
abbrev main_call4_v2 : Ref sig .tc := ⟨.hbm, 171, rfl⟩
abbrev main_call4_v3 : Ref sig .tc := ⟨.hbm, 172, rfl⟩
abbrev main_call4_v4 : Ref sig .tc := ⟨.hbm, 173, rfl⟩
abbrev main_call4_v5 : Ref sig .tc := ⟨.hbm, 174, rfl⟩
abbrev main_call4_v6 : Ref sig .tc := ⟨.hbm, 175, rfl⟩
abbrev main_call4_v7 : Ref sig .tc := ⟨.hbm, 176, rfl⟩
abbrev main_call4_v8 : Ref sig .tc := ⟨.hbm, 177, rfl⟩
abbrev main_call4_c : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_c_0 : Ref sig .tc := ⟨.hbm, 182, rfl⟩
abbrev main_call4_v12 : Ref sig .tc := ⟨.hbm, 183, rfl⟩
abbrev main_call4_v13 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem3_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![13], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4808x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4808x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4808x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S10000x100_S10000x100_0_0 : ∀ a, (![0, 0] : Fin 2 → Nat) a + S10000x100.size a ≤ S10000x100.size a
  h_S10000x100 : 0 < S10000x100.numel
  bitsLt_bf16_f32 : FTy.bits .bf16 < FTy.bits .f32
  inb_S100x8_S100x8_0_0 : ∀ a, (![0, 0] : Fin 2 → Nat) a + S100x8.size a ≤ S100x8.size a
  h_S100x8 : 0 < S100x8.numel
  inb_S10000x8_S10000x8_0_0 : ∀ a, (![0, 0] : Fin 2 → Nat) a + S10000x8.size a ≤ S10000x8.size a
  h_S10000x8 : 0 < S10000x8.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  shapeCasts_S8_S1x8 : S8.ShapeCasts S1x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  shapeCasts_S10000x8_S10000x8 : S10000x8.ShapeCasts S10000x8
  bcast_S_S1000000 : S_.BroadcastsInDim S1000000 (![] : Fin 0 → Fin S1000000.rank)
  bcast_S1000000_S1000000x1_0 : S1000000.BroadcastsInDim S1000000x1 (![0] : Fin 1 → Fin S1000000x1.rank)
  pads_S1000000x8_S1000064x8_0640_000 : S1000000x8.Pads (![0, 0] : Fin 2 → Nat) ![64, 0] ![0, 0] S1000064x8
  h_S_ : 0 < S_.numel
  shapeCasts_S1000064x8_S62504x128 : S1000064x8.ShapeCasts S62504x128
  bcast_S128_S128x1_0 : S128.BroadcastsInDim S128x1 (![0] : Fin 1 → Fin S128x1.rank)
  bcast_S16_S1x16_1 : S16.BroadcastsInDim S1x16 (![1] : Fin 1 → Fin S1x16.rank)
  bcast_S_S128x1 : S_.BroadcastsInDim S128x1 (![] : Fin 0 → Fin S128x1.rank)
  bcast_S128x1_S128x16_0_1 : S128x1.BroadcastsInDim S128x16 (![0, 1] : Fin 2 → Fin S128x16.rank)
  bcast_S1x16_S128x16_0_1 : S1x16.BroadcastsInDim S128x16 (![0, 1] : Fin 2 → Fin S128x16.rank)
  inb_S4808x128_S4808x128_0_0 : ∀ a, (![0, 0] : Fin 2 → Nat) a + S4808x128.size a ≤ S4808x128.size a
  h_S4808x128 : 0 < S4808x128.numel
  shapeCasts_S4808x128_S4808x128 : S4808x128.ShapeCasts S4808x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S4808x16_S4808x16_0_0 : ∀ a, (![0, 0] : Fin 2 → Nat) a + S4808x16.size a ≤ S4808x16.size a
  h_S4808x16 : 0 < S4808x16.numel
  shapeCasts_S62504x16_S1000064 : S62504x16.ShapeCasts S1000064
  slices_S1000064_S1000000_0 : S1000064.Slices ![0] S1000000
  dot_S10000x100_S100x8_S10000x8_1_0_0_1_n_n_wf : DotDims.WF S10000x100 S100x8 S10000x8 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  gather_S100000x8_S1000000x1_S1000000x8_1_0_n_n_0_1_18_wf : GatherDims.WF S100000x8 S1000000x1 S1000000x8 [1] [0] [] [0] [] 1 ![1, 8]
  dot_S4808x128_S128x16_S4808x16_1_0_0_1_n_n_wf : DotDims.WF S4808x128 S128x16 S4808x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x100.size a ≤ S100000x100.size a
  hwx0_0 : ∀ i : grid0.Coords, EltTy.bits .f32 = 32 ∨ (Rect.block (s := S100000x100) S10000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x8.size a ≤ S100x8.size a
  hwx0_1 : ∀ i : grid0.Coords, EltTy.bits .f32 = 32 ∨ (Rect.block (s := S100x8) S100x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x8.size a ≤ S100000x8.size a
  hwx0_2 : ∀ i : grid0.Coords, EltTy.bits .f32 = 32 ∨ (Rect.block (s := S100000x8) S10000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S100000x100.size a
  hwx1_0 : ∀ i : grid1.Coords, EltTy.bits .f32 = 32 ∨ (Rect.block (s := S100000x100) S10000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100x8.size a ≤ S100x8.size a
  hwx1_1 : ∀ i : grid1.Coords, EltTy.bits .f32 = 32 ∨ (Rect.block (s := S100x8) S100x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x8.size a ≤ S100000x8.size a
  hwx1_2 : ∀ i : grid1.Coords, EltTy.bits .f32 = 32 ∨ (Rect.block (s := S100000x8) S10000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S100000x8.size a
  hwx2_0 : ∀ i : grid2.Coords, EltTy.bits .f32 = 32 ∨ (Rect.block (s := S100000x8) S10000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8.size a ≤ S1x8.size a
  hwx2_1 : ∀ i : grid2.Coords, EltTy.bits .f32 = 32 ∨ (Rect.block (s := S1x8) S1x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x8.size a ≤ S100000x8.size a
  hwx2_2 : ∀ i : grid2.Coords, EltTy.bits .f32 = 32 ∨ (Rect.block (s := S100000x8) S10000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x8.size a ≤ S100000x8.size a
  hwx3_0 : ∀ i : grid3.Coords, EltTy.bits .f32 = 32 ∨ (Rect.block (s := S100000x8) S10000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x8.size a ≤ S100000x8.size a
  hwx3_2 : ∀ i : grid3.Coords, EltTy.bits .f32 = 32 ∨ (Rect.block (s := S100000x8) S10000x8.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4808x128.size a ≤ S62504x128.size a
  hwx4_0 : ∀ i : grid4.Coords, EltTy.bits .f32 = 32 ∨ (Rect.block (s := S62504x128) S4808x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4808x128.size a ≤ S62504x128.size a
  hwx4_1 : ∀ i : grid4.Coords, EltTy.bits .f32 = 32 ∨ (Rect.block (s := S62504x128) S4808x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x16.size a ≤ S128x16.size a
  hwx4_2 : ∀ i : grid4.Coords, EltTy.bits .f32 = 32 ∨ (Rect.block (s := S128x16) S128x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4808x16.size a ≤ S62504x16.size a
  hwx4_3 : ∀ i : grid4.Coords, EltTy.bits .f32 = 32 ∨ (Rect.block (s := S62504x16) S4808x16.size (cc4_transform_3 i) (hinb4_3 i)).WholeWords (EltTy.packing .f32)

variable [Facts₀]

def dot_S10000x100_S100x8_S10000x8_1_0_0_1_n_n : DotDims S10000x100 S100x8 S10000x8 where
  lhsContracting := [1]
  rhsContracting := [0]
  lhsNonContracting := [0]
  rhsNonContracting := [1]
  lhsBatch := []
  rhsBatch := []
  wf := dot_S10000x100_S100x8_S10000x8_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def gather_S100000x8_S1000000x1_S1000000x8_1_0_n_n_0_1_18 : GatherDims S100000x8 S1000000x1 S1000000x8 where
  offsetDims := [1]
  collapsedSliceDims := [0]
  operandBatchingDims := []
  startIndicesBatchingDims := []
  startIndexMap := [0]
  indexVectorDim := 1
  sliceSizes := ![1, 8]
  wf := gather_S100000x8_S1000000x1_S1000000x8_1_0_n_n_0_1_18_wf
def dot_S4808x128_S128x16_S4808x16_1_0_0_1_n_n : DotDims S4808x128 S128x16 S4808x16 where
  lhsContracting := [1]
  rhsContracting := [0]
  lhsNonContracting := [0]
  rhsNonContracting := [1]
  lhsBatch := []
  rhsBatch := []
  wf := dot_S4808x128_S128x16_S4808x16_1_0_0_1_n_n_wf

abbrev win0_0 : Pipeline.Window sig grid0 :=
  Pipeline.Window.ofSpec (Memref.whole main_arg0) S10000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S100x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S100x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v96) S1x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v97) S10000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v95) S10000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v98) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v99) S10000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v116) S4808x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v117) S4808x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v126) S128x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v127) S4808x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x100 : Shape := ⟨2, ![100000, 100]⟩
abbrev S2x3200000 : Shape := ⟨2, ![2, 3200000]⟩
abbrev S1000000 : Shape := ⟨1, ![1000000]⟩
abbrev S100x8 : Shape := ⟨2, ![100, 8]⟩
abbrev S8 : Shape := ⟨1, ![8]⟩
abbrev S100000x8 : Shape := ⟨2, ![100000, 8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x8 : Shape := ⟨2, ![3300000, 8]⟩
abbrev S1x8 : Shape := ⟨2, ![1, 8]⟩
abbrev S1000000x1 : Shape := ⟨2, ![1000000, 1]⟩
abbrev S1000000x8 : Shape := ⟨2, ![1000000, 8]⟩

abbrev nBuf : Space → Nat
  | .hbm => 153
  | .vmem => 0
  | .smem => 0
  | _ => 0

abbrev hbmTy0_0 (i : Nat) : BufTy := match i % 128 with
  | 0 => ⟨S100000x100, .f32⟩
  | 1 => ⟨S2x3200000, .i32⟩
  | 2 => ⟨S100000x100, .f32⟩
  | 3 => ⟨S2x3200000, .i32⟩
  | 4 => ⟨S1000000, .i32⟩
  | 5 => ⟨S1000000, .i32⟩
  | 6 => ⟨S100x8, .f32⟩
  | 7 => ⟨S8, .f32⟩
  | 8 => ⟨S100x8, .f32⟩
  | 9 => ⟨S8, .f32⟩
  | 10 => ⟨S100000x8, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x8, .f32⟩
  | 60 => ⟨S3300000x1, .f32⟩
  | 61 => ⟨S3300000x8, .f32⟩
  | 62 => ⟨S3300000x8, .f32⟩
  | 63 => ⟨S_, .f32⟩
  | 64 => ⟨S100000x8, .f32⟩
  | 65 => ⟨S3300000x1, .i32⟩
  | 66 => ⟨S100000x8, .f32⟩
  | 67 => ⟨S1x8, .f32⟩
  | 68 => ⟨S100000x8, .f32⟩
  | 69 => ⟨S100000x8, .f32⟩
  | 70 => ⟨S100000x8, .f32⟩
  | 71 => ⟨S100000x8, .f32⟩
  | 72 => ⟨S100000, .i32⟩
  | 73 => ⟨S1x3200000, .i32⟩
  | 74 => ⟨S3200000, .i32⟩
  | 75 => ⟨S3300000, .i32⟩
  | 76 => ⟨S1x3200000, .i32⟩
  | 77 => ⟨S3200000, .i32⟩
  | 78 => ⟨S3300000, .i32⟩
  | 79 => ⟨S_, .f32⟩
  | 80 => ⟨S3300000, .f32⟩
  | 81 => ⟨S_, .f32⟩
  | 82 => ⟨S100000, .f32⟩
  | 83 => ⟨S3300000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000, .f32⟩
  | 111 => ⟨S3300000, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x8, .f32⟩
  | 121 => ⟨S3300000x1, .f32⟩
  | 122 => ⟨S3300000x8, .f32⟩
  | 123 => ⟨S3300000x8, .f32⟩
  | 124 => ⟨S_, .f32⟩
  | 125 => ⟨S100000x8, .f32⟩
  | 126 => ⟨S3300000x1, .i32⟩
  | 127 => ⟨S100000x8, .f32⟩
  | _ => ⟨S100000x100, .f32⟩

abbrev hbmTy0_1 (i : Nat) : BufTy := match i % 128 with
  | 0 => ⟨S1x8, .f32⟩
  | 1 => ⟨S100000x8, .f32⟩
  | 2 => ⟨S100000x8, .f32⟩
  | 3 => ⟨S100000x8, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000x8, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x8, .f32⟩
  | 22 => ⟨S1000000x8, .f32⟩
  | 23 => ⟨S_, .f32⟩
  | 24 => ⟨S1000000, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call1_v0 : Ref sig .tc := ⟨.hbm, 90, rfl⟩
abbrev main_call1_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_20 : Ref sig .tc := ⟨.hbm, 132, rfl⟩
abbrev main_v96 : Ref sig .tc := ⟨.hbm, 133, rfl⟩
abbrev main_v97 : Ref sig .tc := ⟨.hbm, 134, rfl⟩
abbrev main_c_21 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_22 : Ref sig .tc := ⟨.hbm, 141, rfl⟩
abbrev main_v103 : Ref sig .tc := ⟨.hbm, 142, rfl⟩
abbrev main_v104 : Ref sig .tc := ⟨.hbm, 143, rfl⟩
abbrev main_c_23 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_24 : Ref sig .tc := ⟨.hbm, 151, rfl⟩
abbrev main_v111 : Ref sig .tc := ⟨.hbm, 152, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x8_S1000000_d1 : S1000000x8.ReducesTo [1] S1000000
  h_S_ : 0 < S_.numel
  dot_S100000x100_S100x8_S100000x8_1_0_0_1_n_n_wf : DotDims.WF S100000x100 S100x8 S100000x8 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  gather_S100000x8_S1000000x1_S1000000x8_1_0_n_n_0_1_18_wf : GatherDims.WF S100000x8 S1000000x1 S1000000x8 [1] [0] [] [0] [] 1 ![1, 8]

variable [Facts₀]

def dot_S100000x100_S100x8_S100000x8_1_0_0_1_n_n : DotDims S100000x100 S100x8 S100000x8 where
  lhsContracting := [1]
  rhsContracting := [0]
  lhsNonContracting := [0]
  rhsNonContracting := [1]
  lhsBatch := []
  rhsBatch := []
  wf := dot_S100000x100_S100x8_S100000x8_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def gather_S100000x8_S1000000x1_S1000000x8_1_0_n_n_0_1_18 : GatherDims S100000x8 S1000000x1 S1000000x8 where
  offsetDims := [1]
  collapsedSliceDims := [0]
  operandBatchingDims := []
  startIndicesBatchingDims := []
  startIndexMap := [0]
  indexVectorDim := 1
  sliceSizes := ![1, 8]
  wf := gather_S100000x8_S1000000x1_S1000000x8_1_0_n_n_0_1_18_wf

class Facts : Prop extends Facts₀ where

variable [Facts]
-- ==== Proof.RunValue.lean ====
/-
  The idealized kernel's run with its result named. Every weakly fair execution of the program ends, without a fault,
  with the result buffer at the contents the last segment boundary gives it — the fold of the host operations and the
  five pipelines' write-backs from the launch memory — and with the arguments as launched. It is the same launch over
  the same segments as the frame; only the final memory is read at one more buffer, the result's.
-/
import proofs.«122243_j12000138625507_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program: it terminates, nothing faults, the result buffer ends at the last boundary's contents and
    every argument array as launched. -/
theorem run_result : θ_run defs (onTc (τ := τ) (main (F := F))) ⟨m, fun _ => 0, ρ⟩ (fun r => ∀ c : Dev nD,
      r.2.mem ((c.tc : Thread nD τ).loc main_v129) = W19 m ρ c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v129 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c)⟩)

end Cert.KernelIdeal.RunV

end
-- ==== Proof.TermsK.lean ====
/-
  The host arithmetic of the idealized kernel's program between its pipelines, as whole-array functions.

  Per graph: from the projected features h [100000, 8] and the edge list [2, 3200000] (row 0 the sources, row 1 the
  targets), the in-degree of every node counted over the listed edges plus one for the node's own loop, its inverse
  square root where the degree is positive, and the aggregate
      agg(n, f) = Σ_{e : target(e) = n} h(source(e), f) · (dinv(source(e)) · dinv(target(e))) + h(n, f) · (dinv(n) · dinv(n)),
  the listed edges by a scatter-add, the node's own loop as one more term.
  For the decode: the two embedding tables gathered at the pair indices, padded by 64 zero rows to 1000064 rows, read as
  [62504, 128] (sixteen pairs of eight features per row), and the 0/1 matrix [128, 16] with a one where lane l belongs to
  pair l / 8 of its row.
-/
import proofs.«122243_j12000138625507_2_alg».proof.Proof.Gen.KernelIdeal

noncomputable section

namespace Cert.KernelIdeal.HostTerms

open Cert.KernelIdeal Cert.KernelIdeal.Gen Idealize.ShloMosaic

variable {F : FTy → Type} [FloatOps F]

/-- Row 0 of the edge list: the source of every edge. -/
def srcRow (adj : (⟨S2x3200000, .i32⟩ : BufTy).Contents (Elt F)) : (⟨S3200000, .i32⟩ : BufTy).Contents (Elt F) :=
  shapeCast _ (extractStridedSlice S1x3200000 ![0, 0] adj slices_S2x3200000_S1x3200000_0_0) shapeCasts_S1x3200000_S3200000

/-- Row 1 of the edge list: the target of every edge. -/
def dstRow (adj : (⟨S2x3200000, .i32⟩ : BufTy).Contents (Elt F)) : (⟨S3200000, .i32⟩ : BufTy).Contents (Elt F) :=
  shapeCast _ (extractStridedSlice S1x3200000 ![1, 0] adj slices_S2x3200000_S1x3200000_1_0) shapeCasts_S1x3200000_S3200000

/-- A node index as jnp normalises it before a gather: a negative index counts from the end. -/
def wrap (v : (⟨S3200000, .i32⟩ : BufTy).Contents (Elt F)) : (⟨S3200000, .i32⟩ : BufTy).Contents (Elt F) :=
  select (cmpi .slt v (broadcastInDim S3200000 ![] bcast_S_S3200000 (constantI S_ 32 0#32)))
    (addi v (broadcastInDim S3200000 ![] bcast_S_S3200000 (constantI S_ 32 100000#32))) v

/-- The indices as the one-column array a gather or a scatter takes. -/
def col (v : (⟨S3200000, .i32⟩ : BufTy).Contents (Elt F)) : (⟨S3200000x1, .i32⟩ : BufTy).Contents (Elt F) :=
  broadcastInDim S3200000x1 ![0] bcast_S3200000_S3200000x1_0 v

/-- The degree of every node: the listed edges that end there, and one for the node's own loop. -/
def deg (adj : (⟨S2x3200000, .i32⟩ : BufTy).Contents (Elt F)) : (⟨S100000, .f32⟩ : BufTy).Contents (Elt F) :=
  addf
    (Host.scatterAdd scatter_S100000_S3200000x1_S3200000_n_0_0_1
      (broadcastInDim S100000 ![] bcast_S_S100000 (constant S_ .f32 0x00000000#32))
      (col (dstRow adj))
      (broadcastInDim S3200000 ![] bcast_S_S3200000 (constant S_ .f32 0x3F800000#32)))
    (broadcastInDim S100000 ![] bcast_S_S100000 (constant S_ .f32 0x3F800000#32))

/-- The inverse square root of a degree where the degree is positive, zero elsewhere. -/
def dinvOf (dg : (⟨S100000, .f32⟩ : BufTy).Contents (Elt F)) : (⟨S100000, .f32⟩ : BufTy).Contents (Elt F) :=
  select (cmpf .ogt dg (broadcastInDim S100000 ![] bcast_S_S100000 (constant S_ .f32 0x00000000#32)))
    (Host.rsqrt dg)
    (broadcastInDim S100000 ![] bcast_S_S100000 (id (constant S_ .f32 0x00000000#32)))

/-- The weight of every listed edge: the two ends' inverse square roots multiplied. -/
def edgeNorm (adj : (⟨S2x3200000, .i32⟩ : BufTy).Contents (Elt F)) : (⟨S3200000, .f32⟩ : BufTy).Contents (Elt F) :=
  mulf (Host.gather gather_S100000_S3200000x1_S3200000_n_0_n_n_0_1_1 (dinvOf (deg adj)) (col (wrap (srcRow adj))))
    (Host.gather gather_S100000_S3200000x1_S3200000_n_0_n_n_0_1_1 (dinvOf (deg adj)) (col (wrap (dstRow adj))))

/-- The aggregate: the listed edges' messages added at their targets, and the node's own loop as one more term. -/
def agg (h : (⟨S100000x8, .f32⟩ : BufTy).Contents (Elt F)) (adj : (⟨S2x3200000, .i32⟩ : BufTy).Contents (Elt F)) :
    (⟨S100000x8, .f32⟩ : BufTy).Contents (Elt F) :=
  addf
    (Host.scatterAdd scatter_S100000x8_S3200000x1_S3200000x8_1_0_0_1
      (broadcastInDim S100000x8 ![] bcast_S_S100000x8 (constant S_ .f32 0x00000000#32))
      (col (dstRow adj))
      (mulf (Host.gather gather_S100000x8_S3200000x1_S3200000x8_1_0_n_n_0_1_18 h (col (wrap (srcRow adj))))
        (broadcastInDim S3200000x8 ![0, 1] bcast_S3200000x1_S3200000x8_0_1
          (broadcastInDim S3200000x1 ![0] bcast_S3200000_S3200000x1_0 (edgeNorm adj)))))
    (mulf h
      (broadcastInDim S100000x8 ![0, 1] bcast_S100000x1_S100000x8_0_1
        (broadcastInDim S100000x1 ![0] bcast_S100000_S100000x1_0 (mulf (dinvOf (deg adj)) (dinvOf (deg adj))))))

/-- A pair index as jnp normalises it before a gather. -/
def wrapPair (v : (⟨S1000000, .i32⟩ : BufTy).Contents (Elt F)) : (⟨S1000000, .i32⟩ : BufTy).Contents (Elt F) :=
  select (cmpi .slt v (broadcastInDim S1000000 ![] bcast_S_S1000000 (constantI S_ 32 0#32)))
    (addi v (broadcastInDim S1000000 ![] bcast_S_S1000000 (constantI S_ 32 100000#32))) v

/-- The embedding rows of the pairs, sixteen pairs to a row of 128 lanes, 64 zero rows appended first. -/
def folded (emb : (⟨S100000x8, .f32⟩ : BufTy).Contents (Elt F)) (idx : (⟨S1000000, .i32⟩ : BufTy).Contents (Elt F)) :
    (⟨S62504x128, .f32⟩ : BufTy).Contents (Elt F) :=
  shapeCast _
    (pad S1000064x8 ![0, 0] ![64, 0] ![0, 0]
      (Host.gather gather_S100000x8_S1000000x1_S1000000x8_1_0_n_n_0_1_18 emb
        (broadcastInDim S1000000x1 ![0] bcast_S1000000_S1000000x1_0 (wrapPair idx)))
      (sitofp .f32 (constantI S_ 32 0#32)) pads_S1000000x8_S1000064x8_0640_000 h_S_)
    shapeCasts_S1000064x8_S62504x128

/-- Lane l divided by eight, rounding down, as the program spells the quotient of two integers. -/
def laneGroup : (⟨S128x1, .i32⟩ : BufTy).Contents (Elt F) :=
  let lane : (⟨S128x1, .i32⟩ : BufTy).Contents (Elt F) := broadcastInDim S128x1 ![0] bcast_S128_S128x1_0 (iotaInDim S128 32 0)
  let eight : (⟨S_, .i32⟩ : BufTy).Contents (Elt F) := id (constantI S_ 32 8#32)
  let q : (⟨S128x1, .i32⟩ : BufTy).Contents (Elt F) := Host.divsi lane (broadcastInDim S128x1 ![] bcast_S_S128x1 eight)
  select
    (andi (cmpi .ne (signi lane) (broadcastInDim S128x1 ![] bcast_S_S128x1 (signi eight)))
      (cmpi .ne (Host.remsi lane (broadcastInDim S128x1 ![] bcast_S_S128x1 eight))
        (broadcastInDim S128x1 ![] bcast_S_S128x1 (constantI S_ 32 0#32))))
    (subi q (broadcastInDim S128x1 ![] bcast_S_S128x1 (constantI S_ 32 1#32)))
    q

/-- The 0/1 matrix [128, 16]: one where lane l belongs to pair l / 8. -/
def sel : (⟨S128x16, .f32⟩ : BufTy).Contents (Elt F) :=
  uitofp .f32
    (cmpi .eq (broadcastInDim S128x16 ![0, 1] bcast_S128x1_S128x16_0_1 (laneGroup (F := F)))
      (broadcastInDim S128x16 ![0, 1] bcast_S1x16_S128x16_0_1 (broadcastInDim S1x16 ![1] bcast_S16_S1x16_1 (iotaInDim S16 32 0))))

/-- The result: the decoded scores [62504, 16] read as one vector of 1000064 and cut to the first 1000000. -/
def unfold (out : (⟨S62504x16, .f32⟩ : BufTy).Contents (Elt F)) : (⟨S1000000, .f32⟩ : BufTy).Contents (Elt F) :=
  extractStridedSlice S1000000 ![0] (shapeCast _ out shapeCasts_S62504x16_S1000064) slices_S1000064_S1000000_0

end Cert.KernelIdeal.HostTerms

end
-- ==== Proof.LibFold.lean ====
/-
  Two general facts about runs. (1) The contents after a list of host operations is a fold, so running two lists one after
  the other is running their concatenation: a long straight-line program can be cut at any operation and each part read
  separately. (2) Two facts about the final memory of every weakly fair execution of one program from one state hold
  together: termination and progress are the same statement in both, only the postconditions combine.
-/
import Idealize.ShloMosaic.Lib.StableHlo.Run

namespace Idealize.ShloMosaic.Fold

open Idealize.ShloMosaic Idealize.ShloMosaic.StableHlo Idealize.SL.Sem

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Two postconditions of one run hold together. -/
theorem run_and {nD : Nat} {τ : Topo} {sig : RefSig} {Val : EltTy → Type} {Λ : Labels}
    (defs : Defs nD τ sig Val Λ) (p : (c : Thread nD τ) → Prog (TpuEff nD τ sig Val Λ c.2) PUnit)
    (s : MemSt nD τ sig Val) {Q₁ Q₂ : PUnit × MemSt nD τ sig Val → Prop}
    (h₁ : θ_run defs p s Q₁) (h₂ : θ_run defs p s Q₂) : θ_run defs p s (fun r => Q₁ r ∧ Q₂ r) :=
  ⟨fun t ht hf => ⟨h₁.post t ht hf, h₂.post t ht hf⟩, h₁.progress, h₁.fair⟩

end Idealize.ShloMosaic.Fold
-- ==== Proof.HostK.lean ====
/-
  What the idealized kernel's program holds at the boundaries between its pipelines, read off the fold of its host
  operations: the two aggregates and the two bias rows that the bias-and-tanh pipelines take, the folded embedding rows
  and the 0/1 matrix that the decode pipeline takes, the result cut out of the decode pipeline's output, and the buffers a
  stretch of host operations passes through untouched.
-/
import proofs.«122243_j12000138625507_2_alg».proof.Proof.Gen.KernelIdeal.Frame
import proofs.«122243_j12000138625507_2_alg».proof.Proof.TermsK
import proofs.«122243_j12000138625507_2_alg».proof.Proof.LibFold
import Idealize.ShloMosaic.Lib.StableHlo.Run

set_option maxRecDepth 16384

noncomputable section

namespace Cert.KernelIdeal.HostRead

open Cert.KernelIdeal Cert.KernelIdeal.Gen
open Idealize.ShloMosaic Idealize.ShloMosaic.TcCoe Idealize.ShloMosaic.StableHlo Idealize.SL.Sem

variable {F : FTy → Type} [FloatOps F]

/-- A buffer that no operation of the list writes holds after the list what it held before. -/
macro "untouched" : tactic =>
  `(tactic| exact StableHlo.after_of_forall_not_mem _ _ (List.forall_iff_forall_mem.mp (by
      simp only [hostOps2, hostOps2_1, hostOps2_2, hostOps2_3, hostOps2_4, hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The five stretches of host operations between the second linear pipeline and the first bias-and-tanh pipeline,
    run one after the other, are one list. -/
theorem stretch2 (V : Valuation τ sig (Elt F)) :
    after hostOps2_4 (after hostOps2_3 (after hostOps2_2 (after hostOps2_1 (after hostOps2 V))))
      = after (hostOps2 ++ hostOps2_1 ++ hostOps2_2 ++ hostOps2_3 ++ hostOps2_4) V := by
  rw [Fold.after_append, Fold.after_append, Fold.after_append, Fold.after_append]

set_option maxHeartbeats 8000000 in
/-- The first graph's aggregate, from the first linear pipeline's output and the first edge list. -/
theorem agg_user (V : Valuation τ sig (Elt F)) :
    after hostOps2_4 (after hostOps2_3 (after hostOps2_2 (after hostOps2_1 (after hostOps2 V)))) (Proc.devRef .tc main_v48)
      = HostTerms.agg (V (Proc.devRef .tc main_v0)) (V (Proc.devRef .tc main_arg1)) := by
  rw [stretch2]
  simp only [hostOps2, hostOps2_1, hostOps2_2, hostOps2_3, hostOps2_4, List.cons_append, List.nil_append, List.append_nil]
  after_results_simp
  rfl

set_option maxHeartbeats 8000000 in
/-- The second graph's aggregate, from the second linear pipeline's output and the second edge list. -/
theorem agg_item (V : Valuation τ sig (Elt F)) :
    after hostOps2_4 (after hostOps2_3 (after hostOps2_2 (after hostOps2_1 (after hostOps2 V)))) (Proc.devRef .tc main_v95)
      = HostTerms.agg (V (Proc.devRef .tc main_v1)) (V (Proc.devRef .tc main_arg3)) := by
  rw [stretch2]
  simp only [hostOps2, hostOps2_1, hostOps2_2, hostOps2_3, hostOps2_4, List.cons_append, List.nil_append, List.append_nil]
  after_results_simp
  rfl

set_option maxHeartbeats 8000000 in
/-- The first bias as a one-row matrix. -/
theorem bias_user (V : Valuation τ sig (Elt F)) :
    after hostOps2_4 (after hostOps2_3 (after hostOps2_2 (after hostOps2_1 (after hostOps2 V)))) (Proc.devRef .tc main_v96)
      = shapeCast S1x8 (V (Proc.devRef .tc main_arg7)) shapeCasts_S8_S1x8 := by
  rw [stretch2]
  simp only [hostOps2, hostOps2_1, hostOps2_2, hostOps2_3, hostOps2_4, List.cons_append, List.nil_append, List.append_nil]
  after_results_simp
  rfl

set_option maxHeartbeats 8000000 in
/-- The pair indices and the second bias pass through those stretches untouched. -/
theorem keep2 (V : Valuation τ sig (Elt F)) (b : Ref sig .tc) (hb : b = main_arg4 ∨ b = main_arg5 ∨ b = main_arg9) :
    after hostOps2_4 (after hostOps2_3 (after hostOps2_2 (after hostOps2_1 (after hostOps2 V)))) (Proc.devRef .tc b)
      = V (Proc.devRef .tc b) := by
  rw [stretch2]
  rcases hb with rfl | rfl | rfl <;> untouched

/-- The second bias as a one-row matrix. -/
theorem bias_item (V : Valuation τ sig (Elt F)) :
    after hostOps3 V (Proc.devRef .tc main_v98) = shapeCast S1x8 (V (Proc.devRef .tc main_arg9)) shapeCasts_S8_S1x8 := by
  after_results
  rfl

/-- The recast of the second bias leaves every other buffer as it was. -/
theorem keep3 (V : Valuation τ sig (Elt F)) (b : Ref sig .tc) (hb : b = main_v95 ∨ b = main_v97 ∨ b = main_arg4 ∨ b = main_arg5) :
    after hostOps3 V (Proc.devRef .tc b) = V (Proc.devRef .tc b) := by
  rcases hb with rfl | rfl | rfl | rfl <;> untouched

/-- The seven stretches of host operations in front of the decode pipeline, run one after the other, are one list. -/
theorem stretch4 (V : Valuation τ sig (Elt F)) :
    after hostOps4_6 (after hostOps4_5 (after hostOps4_4 (after hostOps4_3 (after hostOps4_2 (after hostOps4_1 (after hostOps4 V))))))
      = after (hostOps4 ++ hostOps4_1 ++ hostOps4_2 ++ hostOps4_3 ++ hostOps4_4 ++ hostOps4_5 ++ hostOps4_6) V := by
  rw [Fold.after_append, Fold.after_append, Fold.after_append, Fold.after_append, Fold.after_append, Fold.after_append]

set_option maxHeartbeats 8000000 in
/-- The first graph's embedding rows of the pairs, folded sixteen to a row. -/
theorem folded_user (V : Valuation τ sig (Elt F)) :
    after hostOps4_6 (after hostOps4_5 (after hostOps4_4 (after hostOps4_3 (after hostOps4_2 (after hostOps4_1 (after hostOps4 V))))))
        (Proc.devRef .tc main_v116)
      = HostTerms.folded (V (Proc.devRef .tc main_v97)) (V (Proc.devRef .tc main_arg4)) := by
  rw [stretch4]
  simp only [hostOps4, hostOps4_1, hostOps4_2, hostOps4_3, hostOps4_4, hostOps4_5, hostOps4_6, List.cons_append, List.nil_append, List.append_nil]
  after_results_simp
  rfl

set_option maxHeartbeats 8000000 in
/-- The second graph's embedding rows of the pairs, folded sixteen to a row. -/
theorem folded_item (V : Valuation τ sig (Elt F)) :
    after hostOps4_6 (after hostOps4_5 (after hostOps4_4 (after hostOps4_3 (after hostOps4_2 (after hostOps4_1 (after hostOps4 V))))))
        (Proc.devRef .tc main_v117)
      = HostTerms.folded (V (Proc.devRef .tc main_v99)) (V (Proc.devRef .tc main_arg5)) := by
  rw [stretch4]
  simp only [hostOps4, hostOps4_1, hostOps4_2, hostOps4_3, hostOps4_4, hostOps4_5, hostOps4_6, List.cons_append, List.nil_append, List.append_nil]
  after_results_simp
  rfl

set_option maxHeartbeats 8000000 in
/-- The 0/1 matrix of the decode. -/
theorem sel_eq (V : Valuation τ sig (Elt F)) :
    after hostOps4_6 (after hostOps4_5 (after hostOps4_4 (after hostOps4_3 (after hostOps4_2 (after hostOps4_1 (after hostOps4 V))))))
        (Proc.devRef .tc main_v126)
      = HostTerms.sel := by
  rw [stretch4]
  simp only [hostOps4, hostOps4_1, hostOps4_2, hostOps4_3, hostOps4_4, hostOps4_5, hostOps4_6, List.cons_append, List.nil_append, List.append_nil]
  after_results_simp
  rfl

/-- The result, cut out of the decode pipeline's output. -/
theorem result_eq (V : Valuation τ sig (Elt F)) :
    after hostOps5 V (Proc.devRef .tc main_v129) = HostTerms.unfold (V (Proc.devRef .tc main_v127)) := by
  after_results
  rfl

end Cert.KernelIdeal.HostRead

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowProduct.lean ====
/-
  Rows times a weight matrix, `Σ_k X(r,k)·W(k,j)`, over the extended reals, as ONE function of the two whole arrays, and
  its two spellings. The host's plain `dot_general` IS that function. A row-tiled kernel multiplies a block of rows,
  both operands first rounded to bf16 (the identity on the extended reals), into a zero accumulator: entry `(p, j)` of
  the block's product is the function's entry at the block's row `p`, so a block that holds the rows `o + p` of `X` yields
  the rows `o + p` of the whole product. No finiteness is used anywhere: a sum of products is the same sum on both sides.
-/
import Idealize.ShloMosaic.PureOps.Ideal.Laws
import Idealize.ShloMosaic.Lib.ValueIdx
import proofs.«122243_j12000138625507_2_alg».proof.Proof.LibPlainDot

namespace Idealize.ShloMosaic.RowProduct

open Idealize.ShloMosaic.ValueIdx

variable {A B K M : Nat}

/-- The product of the rows of `X` with `W`: entry `(r, j)` is `Σ_k X(r,k)·W(k,j)`. -/
noncomputable def prod (X : FVec Ideal ⟨2, ![A, K]⟩ .f32) (W : FVec Ideal ⟨2, ![K, M]⟩ .f32) : FVec Ideal ⟨2, ![A, M]⟩ .f32 :=
  fun i => ∑ k : Fin K, X (ix2 ⟨(i 0).val, idx2_lt0 i⟩ k) * W (ix2 k ⟨(i 1).val, idx2_lt1 i⟩)

theorem prod_ix2 (X : FVec Ideal ⟨2, ![A, K]⟩ .f32) (W : FVec Ideal ⟨2, ![K, M]⟩ .f32) (r : Fin A) (j : Fin M) :
    prod X W (ix2 r j) = ∑ k : Fin K, X (ix2 r k) * W (ix2 k j) := rfl

/-- The host's plain `dot_general` is that product, as whole arrays. -/
theorem host_eq (prec : Option ContractPrecision) (sched : HostSchedule) (X : FVec Ideal ⟨2, ![A, K]⟩ .f32)
    (W : FVec Ideal ⟨2, ![K, M]⟩ .f32) : FloatOps.dotGeneral (DotDims.plain A K M) prec sched X W = prod X W := by
  funext i
  obtain ⟨r, j, rfl⟩ : ∃ (r : Fin A) (j : Fin M), i = ix2 r j := ⟨i 0, i 1, eq_ix2 i⟩
  exact PlainDot.dotGeneral_apply_ix2 prec sched X W r j

/-- A kernel body's product of a block of rows, both operands rounded to bf16, into a zero accumulator, at `(p, j)`. -/
theorem body_apply (prec : Option ContractPrecision) (x0 : FVec Ideal ⟨2, ![B, K]⟩ .f32) (x1 : FVec Ideal ⟨2, ![K, M]⟩ .f32)
    (h0 h1 : FTy.bf16.bits < FTy.f32.bits) (p : Fin B) (j : Fin M) :
    FloatOps.matmul (DotDims.plain B K M) prec (truncf .bf16 x0 h0) (truncf .bf16 x1 h1)
        (constant ⟨2, ![B, M]⟩ .f32 0x00000000#32) (ix2 p j)
      = ∑ k : Fin K, x0 (ix2 p k) * x1 (ix2 k j) :=
  PlainDot.matmul_apply_ix2 prec (truncf .bf16 x0 h0) (truncf .bf16 x1 h1) p j

/-- A block holding the rows `o + p` of `X`, multiplied by the whole `W`, yields the rows `o + p` of the product. -/
theorem block_rows (X : FVec Ideal ⟨2, ![A, K]⟩ .f32) (W : FVec Ideal ⟨2, ![K, M]⟩ .f32)
    (x0 : FVec Ideal ⟨2, ![B, K]⟩ .f32) (x1 : FVec Ideal ⟨2, ![K, M]⟩ .f32) (o : Nat) (p : Fin B) (j : Fin M)
    (hr : o + p.val < A) (h0 : ∀ k : Fin K, x0 (ix2 p k) = X (ix2 ⟨o + p.val, hr⟩ k))
    (h1 : ∀ k : Fin K, x1 (ix2 k j) = W (ix2 k j)) :
    (∑ k : Fin K, x0 (ix2 p k) * x1 (ix2 k j)) = prod X W (ix2 ⟨o + p.val, hr⟩ j) := by
  rw [prod_ix2]
  exact Finset.sum_congr rfl fun k _ => by rw [h0 k, h1 k]

end Idealize.ShloMosaic.RowProduct
-- ==== Proof.Linear0.lean ====
/-
  The linear pipeline number 0: every grid point multiplies a block of 10000 rows of the feature matrix by the whole weight
  matrix, so the array it leaves is the whole product rows × weights, Σ_k X(r,k)·W(k,j), of the arrays it found.
  Block t of the output is rows 10000·t … 10000·t + 9999; the ten blocks cover the 100000 rows.
-/
import proofs.«122243_j12000138625507_2_alg».proof.Proof.Gen.KernelIdeal.Frame
import proofs.«122243_j12000138625507_2_alg».proof.Proof.LibRowProduct
import Idealize.ShloMosaic.Lib.Pipeline.Value
import Idealize.ShloMosaic.Lib.ValueIdx

set_option maxRecDepth 16384

noncomputable section

namespace Cert.KernelIdeal.Linear0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- Where each window's block sits at grid point t: the rows' blocks move with t, the weights stay. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the arrays the pipeline finds. -/
def whole (c : Dev nD) : S100000x8.Idx → Elt Ideal .f32 :=
  RowProduct.prod (A := 100000) (K := 100) (M := 8) (V c main_arg0) (V c main_arg6)

/-- The body's product of a block of rows at (p, q). -/
theorem body_entry (x0 : Vec Ideal S10000x100 .f32) (x1 : Vec Ideal S100x8 .f32) (p : Fin 10000) (q : Fin 8) :
    k0_pay1 x0 x1 (ix2 p q) = ∑ k : Fin 100, x0 (ix2 p k) * x1 (ix2 k q) := by
  unfold k0_pay1
  exact RowProduct.body_apply (B := 10000) (K := 100) (M := 8) none x0 x1 bitsLt_bf16_f32 bitsLt_bf16_f32 p q

/-- What grid point t writes back is block t of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero offsets_zero]
  simp only [View.ld_unit_zero (S := S10000x100) offsets_zero, View.ld_unit_zero (S := S100x8) offsets_zero]
  obtain ⟨e0, e1, e2, e3, e4, e5⟩ := index_maps t
  funext j
  obtain ⟨p, q, rfl⟩ : ∃ (p : Fin 10000) (q : Fin 8), j = ix2 p q := ⟨j 0, j 1, eq_ix2 j⟩
  have ht : t.val < 10 := t.isLt
  have hr : t.val * 10000 + p.val < 100000 := by have := p.isLt; omega
  show k0_pay1 (iblk0 V c 0 t) (iblk0 V c 1 t) (ix2 p q) = whole V c (((cfg0.win 2).blk t).view.emb (ix2 p q))
  rw [body_entry]
  have hout : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 8 + 1 * q.val = q.val; omega
  rw [hout]
  unfold whole
  refine RowProduct.block_rows (A := 100000) (B := 10000) (K := 100) (M := 8) (V c main_arg0) (V c main_arg6) _ _ (t.val * 10000) p q hr (fun k => ?_) (fun k => ?_)
  · show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 100 + 1 * k.val = k.val; omega
  · show V c main_arg6 (((cfg0.win 1).blk t).view.emb (ix2 k q)) = _
    refine congrArg (V c main_arg6) ?_
    funext a; apply Fin.ext
    match a with
    | ⟨0, _⟩ => show win0_1.index t (0 : Fin 2) * 100 + 1 * k.val = k.val; omega
    | ⟨1, _⟩ => show win0_1.index t (1 : Fin 2) * 8 + 1 * q.val = q.val; omega

/-- An index of the output array is in point t's block iff each coordinate is in the block's range. -/
theorem mem_blk (t : Fin cfg0.N) (i : S100000x8.Idx) :
    i ∈ ((cfg0.win 2).blk t).view.set ↔ ∀ a : Fin 2, win0_2.index t a * S10000x8.size a ≤ (i a).val ∧ (i a).val < win0_2.index t a * S10000x8.size a + S10000x8.size a := by
  show i ∈ ((View.whole main_v0).slice (win0_2.rect t)).set ↔ _
  rw [View.set_slice_whole, Rect.mem_set_unit]
  exact Iff.rfl

/-- Every row of the output is in the block of the point row / 10000. -/
theorem cover (i : S100000x8.Idx) : ∃ t : Fin cfg0.N, (cfg0.win 2).flush t = true ∧ i ∈ ((cfg0.win 2).blk t).view.set := by
  have hi0 : (i 0).val < 100000 := (i 0).isLt
  have hi1 : (i 1).val < 8 := (i 1).isLt
  let t : Fin cfg0.N := ⟨(i 0).val / 10000, by show (i 0).val / 10000 < 10; omega⟩
  have htv : t.val = (i 0).val / 10000 := rfl
  obtain ⟨e0, e1, e2, e3, e4, e5⟩ := index_maps t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 8 ≤ (i 1).val ∧ (i 1).val < win0_2.index t (1 : Fin 2) * 8 + 8; omega

/-- The array the pipeline leaves: the whole product. -/
theorem final (c : Dev nD) : (dat0 V c).arrAt 2 cfg0.N = whole V c :=
  (dat0 V c).arrAt_eq_of_cover 2 (whole V c) (fun t _ => flushed_eq V c t) cover

end Cert.KernelIdeal.Linear0

end
-- ==== Proof.Linear1.lean ====
/-
  The linear pipeline number 1: every grid point multiplies a block of 10000 rows of the feature matrix by the whole weight
  matrix, so the array it leaves is the whole product rows × weights, Σ_k X(r,k)·W(k,j), of the arrays it found.
  Block t of the output is rows 10000·t … 10000·t + 9999; the ten blocks cover the 100000 rows.
-/
import proofs.«122243_j12000138625507_2_alg».proof.Proof.Gen.KernelIdeal.Frame
import proofs.«122243_j12000138625507_2_alg».proof.Proof.LibRowProduct
import Idealize.ShloMosaic.Lib.Pipeline.Value
import Idealize.ShloMosaic.Lib.ValueIdx

set_option maxRecDepth 16384

noncomputable section

namespace Cert.KernelIdeal.Linear1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- Where each window's block sits at grid point t: the rows' blocks move with t, the weights stay. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole product of the arrays the pipeline finds. -/
def whole (c : Dev nD) : S100000x8.Idx → Elt Ideal .f32 :=
  RowProduct.prod (A := 100000) (K := 100) (M := 8) (V c main_arg2) (V c main_arg8)

/-- The body's product of a block of rows at (p, q). -/
theorem body_entry (x0 : Vec Ideal S10000x100 .f32) (x1 : Vec Ideal S100x8 .f32) (p : Fin 10000) (q : Fin 8) :
    k1_pay1 x0 x1 (ix2 p q) = ∑ k : Fin 100, x0 (ix2 p k) * x1 (ix2 k q) := by
  unfold k1_pay1
  exact RowProduct.body_apply (B := 10000) (K := 100) (M := 8) none x0 x1 bitsLt_bf16_f32 bitsLt_bf16_f32 p q

/-- What grid point t writes back is block t of the whole product. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero offsets_zero]
  simp only [View.ld_unit_zero (S := S10000x100) offsets_zero, View.ld_unit_zero (S := S100x8) offsets_zero]
  obtain ⟨e0, e1, e2, e3, e4, e5⟩ := index_maps t
  funext j
  obtain ⟨p, q, rfl⟩ : ∃ (p : Fin 10000) (q : Fin 8), j = ix2 p q := ⟨j 0, j 1, eq_ix2 j⟩
  have ht : t.val < 10 := t.isLt
  have hr : t.val * 10000 + p.val < 100000 := by have := p.isLt; omega
  show k1_pay1 (iblk1 V c 0 t) (iblk1 V c 1 t) (ix2 p q) = whole V c (((cfg1.win 2).blk t).view.emb (ix2 p q))
  rw [body_entry]
  have hout : ((cfg1.win 2).blk t).view.emb (ix2 p q) = ix2 (⟨t.val * 10000 + p.val, hr⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 8 + 1 * q.val = q.val; omega
  rw [hout]
  unfold whole
  refine RowProduct.block_rows (A := 100000) (B := 10000) (K := 100) (M := 8) (V c main_arg2) (V c main_arg8) _ _ (t.val * 10000) p q hr (fun k => ?_) (fun k => ?_)
  · show V c main_arg2 (((cfg1.win 0).blk t).view.emb (ix2 p k)) = _
    refine congrArg (V c main_arg2) ?_
    funext a; apply Fin.ext
    match a with
    | ⟨0, _⟩ => show win1_0.index t (0 : Fin 2) * 10000 + 1 * p.val = t.val * 10000 + p.val; omega
    | ⟨1, _⟩ => show win1_0.index t (1 : Fin 2) * 100 + 1 * k.val = k.val; omega
  · show V c main_arg8 (((cfg1.win 1).blk t).view.emb (ix2 k q)) = _
    refine congrArg (V c main_arg8) ?_
    funext a; apply Fin.ext
    match a with
    | ⟨0, _⟩ => show win1_1.index t (0 : Fin 2) * 100 + 1 * k.val = k.val; omega
    | ⟨1, _⟩ => show win1_1.index t (1 : Fin 2) * 8 + 1 * q.val = q.val; omega

/-- An index of the output array is in point t's block iff each coordinate is in the block's range. -/
theorem mem_blk (t : Fin cfg1.N) (i : S100000x8.Idx) :
    i ∈ ((cfg1.win 2).blk t).view.set ↔ ∀ a : Fin 2, win1_2.index t a * S10000x8.size a ≤ (i a).val ∧ (i a).val < win1_2.index t a * S10000x8.size a + S10000x8.size a := by
  show i ∈ ((View.whole main_v1).slice (win1_2.rect t)).set ↔ _
  rw [View.set_slice_whole, Rect.mem_set_unit]
  exact Iff.rfl

/-- Every row of the output is in the block of the point row / 10000. -/
theorem cover (i : S100000x8.Idx) : ∃ t : Fin cfg1.N, (cfg1.win 2).flush t = true ∧ i ∈ ((cfg1.win 2).blk t).view.set := by
  have hi0 : (i 0).val < 100000 := (i 0).isLt
  have hi1 : (i 1).val < 8 := (i 1).isLt
  let t : Fin cfg1.N := ⟨(i 0).val / 10000, by show (i 0).val / 10000 < 10; omega⟩
  have htv : t.val = (i 0).val / 10000 := rfl
  obtain ⟨e0, e1, e2, e3, e4, e5⟩ := index_maps t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 8 ≤ (i 1).val ∧ (i 1).val < win1_2.index t (1 : Fin 2) * 8 + 8; omega

/-- The array the pipeline leaves: the whole product. -/
theorem final (c : Dev nD) : (dat1 V c).arrAt 2 cfg1.N = whole V c :=
  (dat1 V c).arrAt_eq_of_cover 2 (whole V c) (fun t _ => flushed_eq V c t) cover

end Cert.KernelIdeal.Linear1

end
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«122243_j12000138625507_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibBiasRows.lean ====
/-
  A bias row added to every row of a matrix, `Z(r,j) + b(j)`, over the extended reals, as ONE function and in its two
  spellings. A kernel body holds the bias as a one-row matrix `[1, M]` and repeats it down the rows of its block. The host
  lifts the bias vector `[M]` to `[1, M]` and then to `[A, M]`. Entry `(r, j)` reads row `r` of `Z` only, so a block of
  rows of `Z` yields the same rows of the result. No finiteness is used: it is one sum on both sides.
-/
import Idealize.ShloMosaic.PureOps.Ideal.Laws
import Idealize.ShloMosaic.Lib.ValueIdx
import Idealize.ShloMosaic.Lib.ValueLayout
import Idealize.ShloMosaic.Lib.Pipeline.Value
import proofs.«122243_j12000138625507_2_alg».proof.Proof.LibAffine

namespace Idealize.ShloMosaic.BiasRows

open Idealize.ShloMosaic.ValueIdx

variable {A B M : Nat}

/-- `Z(r,j) + b(0,j)`, the bias a one-row matrix. -/
noncomputable def biasRows (Z : FVec Ideal ⟨2, ![A, M]⟩ .f32) (b : FVec Ideal ⟨2, ![1, M]⟩ .f32) : FVec Ideal ⟨2, ![A, M]⟩ .f32 :=
  fun i => Z i + b (ix2 (0 : Fin 1) ⟨(i 1).val, idx2_lt1 i⟩)

theorem biasRows_ix2 (Z : FVec Ideal ⟨2, ![A, M]⟩ .f32) (b : FVec Ideal ⟨2, ![1, M]⟩ .f32) (r : Fin A) (j : Fin M) :
    biasRows Z b (ix2 r j) = Z (ix2 r j) + b (ix2 (0 : Fin 1) j) := rfl

/-- The kernel body's spelling at `(p, j)` of its block (the two casts to a vector's own shape are the identity). -/
theorem body_apply (x0 : FVec Ideal ⟨2, ![B, M]⟩ .f32) (x1 : FVec Ideal ⟨2, ![1, M]⟩ .f32)
    (h0 : (⟨2, ![B, M]⟩ : Shape).ShapeCasts ⟨2, ![B, M]⟩) (h1 : (⟨2, ![1, M]⟩ : Shape).ShapeCasts ⟨2, ![1, M]⟩)
    (hb : (⟨2, ![1, M]⟩ : Shape).Broadcasts ⟨2, ![B, M]⟩) (p : Fin B) (j : Fin M) :
    addf (shapeCast ⟨2, ![B, M]⟩ x0 h0) (broadcastTo ⟨2, ![B, M]⟩ (shapeCast ⟨2, ![1, M]⟩ x1 h1) hb) (ix2 p j)
      = x0 (ix2 p j) + x1 (ix2 (0 : Fin 1) j) := by
  rw [shapeCast_self, shapeCast_self]
  refine (addf_apply _ _ _).trans ?_
  exact congrArg (x0 (ix2 p j) + ·) (broadcastTo_1b_ab_apply x1 hb p j)

/-- A block holding the rows `o + p` of `Z`, with the same bias row, yields the rows `o + p` of the whole result. -/
theorem block_rows (Z : FVec Ideal ⟨2, ![A, M]⟩ .f32) (b : FVec Ideal ⟨2, ![1, M]⟩ .f32)
    (x0 : FVec Ideal ⟨2, ![B, M]⟩ .f32) (x1 : FVec Ideal ⟨2, ![1, M]⟩ .f32) (o : Nat) (p : Fin B) (j : Fin M)
    (hr : o + p.val < A) (h0 : x0 (ix2 p j) = Z (ix2 ⟨o + p.val, hr⟩ j)) (h1 : x1 (ix2 (0 : Fin 1) j) = b (ix2 (0 : Fin 1) j)) :
    x0 (ix2 p j) + x1 (ix2 (0 : Fin 1) j) = biasRows Z b (ix2 ⟨o + p.val, hr⟩ j) := by
  rw [biasRows_ix2, h0, h1]

/-- The host's spelling at `(r, j)`. -/
theorem host_apply (Z : FVec Ideal ⟨2, ![A, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (r : Fin A) (j : Fin M) :
    addf Z (broadcastInDim ⟨2, ![A, M]⟩ ![0, 1] h2 (broadcastInDim ⟨2, ![1, M]⟩ ![1] h1 b)) (ix2 r j)
      = Z (ix2 r j) + b (ix1 j) := by
  refine (addf_apply _ _ _).trans ?_
  exact congrArg (Z (ix2 r j) + ·) (Affine.bias_rows_apply b h1 h2 r j)

/-- The two spellings agree as whole arrays: the kernel's bias row is the host's bias vector recast to `[1, M]`. -/
theorem biasRows_eq_host (Z : FVec Ideal ⟨2, ![A, M]⟩ .f32) (b : FVec Ideal ⟨1, ![M]⟩ .f32)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    biasRows Z (shapeCast ⟨2, ![1, M]⟩ b hc)
      = addf Z (broadcastInDim ⟨2, ![A, M]⟩ ![0, 1] h2 (broadcastInDim ⟨2, ![1, M]⟩ ![1] h1 b)) := by
  funext i
  obtain ⟨r, j, rfl⟩ : ∃ (r : Fin A) (j : Fin M), i = ix2 r j := ⟨i 0, i 1, eq_ix2 i⟩
  rw [host_apply, biasRows_ix2, shapeCast_a_1a_apply]

end Idealize.ShloMosaic.BiasRows
-- ==== Proof.BiasTanh2.lean ====
/-
  The bias-and-tanh pipeline number 2: every grid point adds the one-row bias to a block of 10000 rows of the aggregate and
  applies tanh, so the array it leaves is tanh(Z(r,j) + b(0,j)) of the arrays it found. Block t of the output is rows
  10000·t … 10000·t + 9999; the ten blocks cover the 100000 rows.
-/
import proofs.«122243_j12000138625507_2_alg».proof.Proof.Gen.KernelIdeal.Frame
import proofs.«122243_j12000138625507_2_alg».proof.Proof.LibBiasRows
import Idealize.ShloMosaic.Lib.Pipeline.Value
import Idealize.ShloMosaic.Lib.ValueIdx

set_option maxRecDepth 16384

noncomputable section

namespace Cert.KernelIdeal.BiasTanh2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- Where each window's block sits at grid point t: the rows' blocks move with t, the bias row stays. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- tanh of the rows plus the bias row, as one function of two whole arrays. -/
def tanhBias (Z : FVec Ideal ⟨2, ![100000, 8]⟩ .f32) (b : FVec Ideal ⟨2, ![1, 8]⟩ .f32) : FVec Ideal ⟨2, ![100000, 8]⟩ .f32 :=
  fun i => Ideal.tanh (BiasRows.biasRows Z b i)

/-- That function of the arrays the pipeline finds. -/
def whole (c : Dev nD) : S100000x8.Idx → Elt Ideal .f32 := tanhBias (V c main_v48) (V c main_v96)

/-- The body's value at (p, q) of its block. -/
theorem body_entry (x1 : Vec Ideal S1x8 .f32) (x0 : Vec Ideal S10000x8 .f32) (p : Fin 10000) (q : Fin 8) :
    k2_pay1 x1 x0 (ix2 p q) = Ideal.tanh (x0 (ix2 p q) + x1 (ix2 (0 : Fin 1) q)) := by
  unfold k2_pay1
  rw [shapeCast_self, shapeCast_self, shapeCast_self]
  exact congrArg Ideal.tanh ((addf_apply _ _ _).trans (congrArg (x0 (ix2 p q) + ·) (broadcastTo_1b_ab_apply x1 broadcasts_S1x8_S10000x8 p q)))

/-- What grid point t writes back is block t of the whole function. -/
theorem flushed_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero offsets_zero]
  simp only [View.ld_unit_zero (S := S10000x8) offsets_zero, View.ld_unit_zero (S := S1x8) offsets_zero]
  obtain ⟨e0, e1, e2, e3, e4, e5⟩ := index_maps t
  funext j
  obtain ⟨p, q, rfl⟩ : ∃ (p : Fin 10000) (q : Fin 8), j = ix2 p q := ⟨j 0, j 1, eq_ix2 j⟩
  have ht : t.val < 10 := t.isLt
  have hr : t.val * 10000 + p.val < 100000 := by have := p.isLt; omega
  show k2_pay1 (iblk2 V c 1 t) (iblk2 V c 0 t) (ix2 p q) = whole V c (((cfg2.win 2).blk t).view.emb (ix2 p q))
  rw [body_entry]
  have hout : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 8 + 1 * q.val = q.val; omega
  rw [hout]
  unfold whole tanhBias
  refine congrArg Ideal.tanh ?_
  refine BiasRows.block_rows (A := 100000) (B := 10000) (M := 8) (V c main_v48) (V c main_v96) _ _ (t.val * 10000) p q hr ?_ ?_
  · show V c main_v48 (((cfg2.win 0).blk t).view.emb (ix2 p q)) = _
    refine congrArg (V c main_v48) ?_
    funext a; apply Fin.ext
    match a with
    | ⟨0, _⟩ => show win2_0.index t (0 : Fin 2) * 10000 + 1 * p.val = t.val * 10000 + p.val; omega
    | ⟨1, _⟩ => show win2_0.index t (1 : Fin 2) * 8 + 1 * q.val = q.val; omega
  · show V c main_v96 (((cfg2.win 1).blk t).view.emb (ix2 (0 : Fin 1) q)) = _
    refine congrArg (V c main_v96) ?_
    funext a; apply Fin.ext
    match a with
    | ⟨0, _⟩ => show win2_1.index t (0 : Fin 2) * 1 + 1 * 0 = 0; omega
    | ⟨1, _⟩ => show win2_1.index t (1 : Fin 2) * 8 + 1 * q.val = q.val; omega

/-- An index of the output array is in point t's block iff each coordinate is in the block's range. -/
theorem mem_blk (t : Fin cfg2.N) (i : S100000x8.Idx) :
    i ∈ ((cfg2.win 2).blk t).view.set ↔ ∀ a : Fin 2, win2_2.index t a * S10000x8.size a ≤ (i a).val ∧ (i a).val < win2_2.index t a * S10000x8.size a + S10000x8.size a := by
  show i ∈ ((View.whole main_v97).slice (win2_2.rect t)).set ↔ _
  rw [View.set_slice_whole, Rect.mem_set_unit]
  exact Iff.rfl

/-- Every row of the output is in the block of the point row / 10000. -/
theorem cover (i : S100000x8.Idx) : ∃ t : Fin cfg2.N, (cfg2.win 2).flush t = true ∧ i ∈ ((cfg2.win 2).blk t).view.set := by
  have hi0 : (i 0).val < 100000 := (i 0).isLt
  have hi1 : (i 1).val < 8 := (i 1).isLt
  let t : Fin cfg2.N := ⟨(i 0).val / 10000, by show (i 0).val / 10000 < 10; omega⟩
  have htv : t.val = (i 0).val / 10000 := rfl
  obtain ⟨e0, e1, e2, e3, e4, e5⟩ := index_maps t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 8 ≤ (i 1).val ∧ (i 1).val < win2_2.index t (1 : Fin 2) * 8 + 8; omega

/-- The array the pipeline leaves. -/
theorem final (c : Dev nD) : (dat2 V c).arrAt 2 cfg2.N = whole V c :=
  (dat2 V c).arrAt_eq_of_cover 2 (whole V c) (fun t _ => flushed_eq V c t) cover

end Cert.KernelIdeal.BiasTanh2

end
-- ==== Proof.BiasTanh3.lean ====
/-
  The bias-and-tanh pipeline number 3: every grid point adds the one-row bias to a block of 10000 rows of the aggregate and
  applies tanh, so the array it leaves is tanh(Z(r,j) + b(0,j)) of the arrays it found. Block t of the output is rows
  10000·t … 10000·t + 9999; the ten blocks cover the 100000 rows.
-/
import proofs.«122243_j12000138625507_2_alg».proof.Proof.Gen.KernelIdeal.Frame
import proofs.«122243_j12000138625507_2_alg».proof.Proof.LibBiasRows
import Idealize.ShloMosaic.Lib.Pipeline.Value
import Idealize.ShloMosaic.Lib.ValueIdx

set_option maxRecDepth 16384

noncomputable section

namespace Cert.KernelIdeal.BiasTanh3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- Where each window's block sits at grid point t: the rows' blocks move with t, the bias row stays. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- tanh of the rows plus the bias row, as one function of two whole arrays. -/
def tanhBias (Z : FVec Ideal ⟨2, ![100000, 8]⟩ .f32) (b : FVec Ideal ⟨2, ![1, 8]⟩ .f32) : FVec Ideal ⟨2, ![100000, 8]⟩ .f32 :=
  fun i => Ideal.tanh (BiasRows.biasRows Z b i)

/-- That function of the arrays the pipeline finds. -/
def whole (c : Dev nD) : S100000x8.Idx → Elt Ideal .f32 := tanhBias (V c main_v95) (V c main_v98)

/-- The body's value at (p, q) of its block. -/
theorem body_entry (x1 : Vec Ideal S1x8 .f32) (x0 : Vec Ideal S10000x8 .f32) (p : Fin 10000) (q : Fin 8) :
    k3_pay1 x1 x0 (ix2 p q) = Ideal.tanh (x0 (ix2 p q) + x1 (ix2 (0 : Fin 1) q)) := by
  unfold k3_pay1
  rw [shapeCast_self, shapeCast_self, shapeCast_self]
  exact congrArg Ideal.tanh ((addf_apply _ _ _).trans (congrArg (x0 (ix2 p q) + ·) (broadcastTo_1b_ab_apply x1 broadcasts_S1x8_S10000x8 p q)))

/-- What grid point t writes back is block t of the whole function. -/
theorem flushed_eq (c : Dev nD) (t : Fin cfg3.N) :
    (dat3 V c).flushed 2 t = ((cfg3.win 2).blk t).view.read (Elt Ideal) (whole V c) := by
  show (cfg3.win 2).cut (grid3.coords t) ((dat3 V c).after 2 t) = _
  rw [after3_2]
  unfold out3_2
  rw [View.canon_unit_zero offsets_zero]
  simp only [View.ld_unit_zero (S := S10000x8) offsets_zero, View.ld_unit_zero (S := S1x8) offsets_zero]
  obtain ⟨e0, e1, e2, e3, e4, e5⟩ := index_maps t
  funext j
  obtain ⟨p, q, rfl⟩ : ∃ (p : Fin 10000) (q : Fin 8), j = ix2 p q := ⟨j 0, j 1, eq_ix2 j⟩
  have ht : t.val < 10 := t.isLt
  have hr : t.val * 10000 + p.val < 100000 := by have := p.isLt; omega
  show k3_pay1 (iblk3 V c 1 t) (iblk3 V c 0 t) (ix2 p q) = whole V c (((cfg3.win 2).blk t).view.emb (ix2 p q))
  rw [body_entry]
  have hout : ((cfg3.win 2).blk t).view.emb (ix2 p q) = ix2 (⟨t.val * 10000 + p.val, hr⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 8 + 1 * q.val = q.val; omega
  rw [hout]
  unfold whole tanhBias
  refine congrArg Ideal.tanh ?_
  refine BiasRows.block_rows (A := 100000) (B := 10000) (M := 8) (V c main_v95) (V c main_v98) _ _ (t.val * 10000) p q hr ?_ ?_
  · show V c main_v95 (((cfg3.win 0).blk t).view.emb (ix2 p q)) = _
    refine congrArg (V c main_v95) ?_
    funext a; apply Fin.ext
    match a with
    | ⟨0, _⟩ => show win3_0.index t (0 : Fin 2) * 10000 + 1 * p.val = t.val * 10000 + p.val; omega
    | ⟨1, _⟩ => show win3_0.index t (1 : Fin 2) * 8 + 1 * q.val = q.val; omega
  · show V c main_v98 (((cfg3.win 1).blk t).view.emb (ix2 (0 : Fin 1) q)) = _
    refine congrArg (V c main_v98) ?_
    funext a; apply Fin.ext
    match a with
    | ⟨0, _⟩ => show win3_1.index t (0 : Fin 2) * 1 + 1 * 0 = 0; omega
    | ⟨1, _⟩ => show win3_1.index t (1 : Fin 2) * 8 + 1 * q.val = q.val; omega

/-- An index of the output array is in point t's block iff each coordinate is in the block's range. -/
theorem mem_blk (t : Fin cfg3.N) (i : S100000x8.Idx) :
    i ∈ ((cfg3.win 2).blk t).view.set ↔ ∀ a : Fin 2, win3_2.index t a * S10000x8.size a ≤ (i a).val ∧ (i a).val < win3_2.index t a * S10000x8.size a + S10000x8.size a := by
  show i ∈ ((View.whole main_v99).slice (win3_2.rect t)).set ↔ _
  rw [View.set_slice_whole, Rect.mem_set_unit]
  exact Iff.rfl

/-- Every row of the output is in the block of the point row / 10000. -/
theorem cover (i : S100000x8.Idx) : ∃ t : Fin cfg3.N, (cfg3.win 2).flush t = true ∧ i ∈ ((cfg3.win 2).blk t).view.set := by
  have hi0 : (i 0).val < 100000 := (i 0).isLt
  have hi1 : (i 1).val < 8 := (i 1).isLt
  let t : Fin cfg3.N := ⟨(i 0).val / 10000, by show (i 0).val / 10000 < 10; omega⟩
  have htv : t.val = (i 0).val / 10000 := rfl
  obtain ⟨e0, e1, e2, e3, e4, e5⟩ := index_maps t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 8 ≤ (i 1).val ∧ (i 1).val < win3_2.index t (1 : Fin 2) * 8 + 8; omega

/-- The array the pipeline leaves. -/
theorem final (c : Dev nD) : (dat3 V c).arrAt 2 cfg3.N = whole V c :=
  (dat3 V c).arrAt_eq_of_cover 2 (whole V c) (fun t _ => flushed_eq V c t) cover

end Cert.KernelIdeal.BiasTanh3

end
-- ==== Proof.Decode.lean ====
/-
  The decode pipeline: every grid point takes a block of 4808 rows of the two folded embedding arrays [62504, 128] and the
  whole 0/1 matrix [128, 16], multiplies the two blocks entry by entry and multiplies the product by the matrix, so the
  array it leaves is out(r, k) = Σ_l (U(r,l) · V(r,l)) · S(l,k) of the arrays it found. Block t of the output is rows
  4808·t … 4808·t + 4807; the thirteen blocks cover the 62504 rows.
-/
import proofs.«122243_j12000138625507_2_alg».proof.Proof.Gen.KernelIdeal.Frame
import proofs.«122243_j12000138625507_2_alg».proof.Proof.LibPlainDot
import Idealize.ShloMosaic.Lib.Pipeline.Value
import Idealize.ShloMosaic.Lib.ValueIdx

set_option maxRecDepth 16384

noncomputable section

namespace Cert.KernelIdeal.Decode

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- Where each window's block sits at grid point t: the rows' blocks move with t, the 0/1 matrix stays. -/
theorem index_maps : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The products of two arrays' entries along every row, multiplied by a matrix. -/
def rowsTimes (A B : FVec Ideal ⟨2, ![62504, 128]⟩ .f32) (S : FVec Ideal ⟨2, ![128, 16]⟩ .f32) : FVec Ideal ⟨2, ![62504, 16]⟩ .f32 :=
  fun i => ∑ l : Fin 128, (A (ix2 ⟨(i 0).val, idx2_lt0 i⟩ l) * B (ix2 ⟨(i 0).val, idx2_lt0 i⟩ l)) * S (ix2 l ⟨(i 1).val, idx2_lt1 i⟩)

theorem rowsTimes_ix2 (A B : FVec Ideal ⟨2, ![62504, 128]⟩ .f32) (S : FVec Ideal ⟨2, ![128, 16]⟩ .f32) (r : Fin 62504) (k : Fin 16) :
    rowsTimes A B S (ix2 r k) = ∑ l : Fin 128, (A (ix2 r l) * B (ix2 r l)) * S (ix2 l k) := rfl

/-- That function of the arrays the pipeline finds. -/
def whole (c : Dev nD) : S62504x16.Idx → Elt Ideal .f32 := rowsTimes (V c main_v116) (V c main_v117) (V c main_v126)

/-- The body's value at (p, k) of its block. -/
theorem body_entry (x0 x1 : Vec Ideal S4808x128 .f32) (x2 : Vec Ideal S128x16 .f32) (p : Fin 4808) (k : Fin 16) :
    k4_pay1 x0 x1 x2 (ix2 p k) = ∑ l : Fin 128, (x0 (ix2 p l) * x1 (ix2 p l)) * x2 (ix2 l k) := by
  unfold k4_pay1
  rw [shapeCast_self, shapeCast_self, shapeCast_self]
  exact PlainDot.matmul_apply_ix2 (M := 4808) (K := 128) (N := 16) (some .fp32) _ _ p k

/-- What grid point t writes back is block t of the whole function. -/
theorem flushed_eq (c : Dev nD) (t : Fin cfg4.N) :
    (dat4 V c).flushed 3 t = ((cfg4.win 3).blk t).view.read (Elt Ideal) (whole V c) := by
  show (cfg4.win 3).cut (grid4.coords t) ((dat4 V c).after 3 t) = _
  rw [after4_3]
  unfold out4_3
  rw [View.canon_unit_zero offsets_zero]
  simp only [View.ld_unit_zero (S := S4808x128) offsets_zero, View.ld_unit_zero (S := S128x16) offsets_zero]
  obtain ⟨e0, e1, e2, e3, e4, e5, e6, e7⟩ := index_maps t
  funext j
  obtain ⟨p, k, rfl⟩ : ∃ (p : Fin 4808) (k : Fin 16), j = ix2 p k := ⟨j 0, j 1, eq_ix2 j⟩
  have ht : t.val < 13 := t.isLt
  have hr : t.val * 4808 + p.val < 62504 := by have := p.isLt; omega
  show k4_pay1 (iblk4 V c 0 t) (iblk4 V c 1 t) (iblk4 V c 2 t) (ix2 p k) = whole V c (((cfg4.win 3).blk t).view.emb (ix2 p k))
  rw [body_entry]
  have hout : ((cfg4.win 3).blk t).view.emb (ix2 p k) = ix2 (⟨t.val * 4808 + p.val, hr⟩ : Fin 62504) k := by
    funext a; apply Fin.ext
    match a with
    | ⟨0, _⟩ => show win4_3.index t (0 : Fin 2) * 4808 + 1 * p.val = t.val * 4808 + p.val; omega
    | ⟨1, _⟩ => show win4_3.index t (1 : Fin 2) * 16 + 1 * k.val = k.val; omega
  rw [hout]
  unfold whole
  rw [rowsTimes_ix2]
  refine Finset.sum_congr rfl fun l _ => ?_
  have h0 : iblk4 V c 0 t (ix2 p l) = V c main_v116 (ix2 (⟨t.val * 4808 + p.val, hr⟩ : Fin 62504) l) := by
    show V c main_v116 (((cfg4.win 0).blk t).view.emb (ix2 p l)) = _
    refine congrArg (V c main_v116) ?_
    funext a; apply Fin.ext
    match a with
    | ⟨0, _⟩ => show win4_0.index t (0 : Fin 2) * 4808 + 1 * p.val = t.val * 4808 + p.val; omega
    | ⟨1, _⟩ => show win4_0.index t (1 : Fin 2) * 128 + 1 * l.val = l.val; omega
  have h1 : iblk4 V c 1 t (ix2 p l) = V c main_v117 (ix2 (⟨t.val * 4808 + p.val, hr⟩ : Fin 62504) l) := by
    show V c main_v117 (((cfg4.win 1).blk t).view.emb (ix2 p l)) = _
    refine congrArg (V c main_v117) ?_
    funext a; apply Fin.ext
    match a with
    | ⟨0, _⟩ => show win4_1.index t (0 : Fin 2) * 4808 + 1 * p.val = t.val * 4808 + p.val; omega
    | ⟨1, _⟩ => show win4_1.index t (1 : Fin 2) * 128 + 1 * l.val = l.val; omega
  have h2 : iblk4 V c 2 t (ix2 l k) = V c main_v126 (ix2 l k) := by
    show V c main_v126 (((cfg4.win 2).blk t).view.emb (ix2 l k)) = _
    refine congrArg (V c main_v126) ?_
    funext a; apply Fin.ext
    match a with
    | ⟨0, _⟩ => show win4_2.index t (0 : Fin 2) * 128 + 1 * l.val = l.val; omega
    | ⟨1, _⟩ => show win4_2.index t (1 : Fin 2) * 16 + 1 * k.val = k.val; omega
  rw [h0, h1, h2]

/-- An index of the output array is in point t's block iff each coordinate is in the block's range. -/
theorem mem_blk (t : Fin cfg4.N) (i : S62504x16.Idx) :
    i ∈ ((cfg4.win 3).blk t).view.set ↔ ∀ a : Fin 2, win4_3.index t a * S4808x16.size a ≤ (i a).val ∧ (i a).val < win4_3.index t a * S4808x16.size a + S4808x16.size a := by
  show i ∈ ((View.whole main_v127).slice (win4_3.rect t)).set ↔ _
  rw [View.set_slice_whole, Rect.mem_set_unit]
  exact Iff.rfl

/-- Every row of the output is in the block of the point row / 4808. -/
theorem cover (i : S62504x16.Idx) : ∃ t : Fin cfg4.N, (cfg4.win 3).flush t = true ∧ i ∈ ((cfg4.win 3).blk t).view.set := by
  have hi0 : (i 0).val < 62504 := (i 0).isLt
  have hi1 : (i 1).val < 16 := (i 1).isLt
  let t : Fin cfg4.N := ⟨(i 0).val / 4808, by show (i 0).val / 4808 < 13; omega⟩
  have htv : t.val = (i 0).val / 4808 := rfl
  obtain ⟨e0, e1, e2, e3, e4, e5, e6, e7⟩ := index_maps t
  refine ⟨t, flush4_3 t, ?_⟩
  rw [mem_blk]
  intro a
  match a with
  | ⟨0, _⟩ => show win4_3.index t (0 : Fin 2) * 4808 ≤ (i 0).val ∧ (i 0).val < win4_3.index t (0 : Fin 2) * 4808 + 4808; omega
  | ⟨1, _⟩ => show win4_3.index t (1 : Fin 2) * 16 ≤ (i 1).val ∧ (i 1).val < win4_3.index t (1 : Fin 2) * 16 + 16; omega

/-- The array the pipeline leaves. -/
theorem final (c : Dev nD) : (dat4 V c).arrAt 3 cfg4.N = whole V c :=
  (dat4 V c).arrAt_eq_of_cover 3 (whole V c) (fun t _ => flushed_eq V c t) cover

end Cert.KernelIdeal.Decode

end
-- ==== Proof.KValue.lean ====
/-
  The idealized kernel's result as one function of its arguments: the boundary contents chained from the launch memory to
  the return. Each pipeline leaves the whole-array function of what it found (the products rows × weights, tanh of the
  aggregate plus the bias row, the row-wise products times the 0/1 matrix); each stretch of host operations in between
  applies its own arithmetic to that; nothing else writes the buffers involved.
-/
import proofs.«122243_j12000138625507_2_alg».proof.Proof.HostK
import proofs.«122243_j12000138625507_2_alg».proof.Proof.Linear0
import proofs.«122243_j12000138625507_2_alg».proof.Proof.Linear1
import proofs.«122243_j12000138625507_2_alg».proof.Proof.BiasTanh2
import proofs.«122243_j12000138625507_2_alg».proof.Proof.BiasTanh3
import proofs.«122243_j12000138625507_2_alg».proof.Proof.Decode

set_option maxRecDepth 16384

noncomputable section

namespace Cert.KernelIdeal.KValue

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- One graph's embedding as the kernel's program computes it. -/
def emb (x : S100000x100.Idx → Elt Ideal .f32) (w : S100x8.Idx → Elt Ideal .f32) (adj : S2x3200000.Idx → Elt Ideal .i32)
    (b : S8.Idx → Elt Ideal .f32) : S100000x8.Idx → Elt Ideal .f32 :=
  BiasTanh2.tanhBias (HostTerms.agg (F := Ideal) (RowProduct.prod (A := 100000) (K := 100) (M := 8) x w) adj) (shapeCast S1x8 b shapeCasts_S8_S1x8)

/-- The result as the kernel's program computes it from two embedding tables and the pair indices. -/
def score (eu ei : S100000x8.Idx → Elt Ideal .f32) (u i : S1000000.Idx → Elt Ideal .i32) : S1000000.Idx → Elt Ideal .f32 :=
  HostTerms.unfold (F := Ideal) (Decode.rowsTimes (HostTerms.folded (F := Ideal) eu u) (HostTerms.folded (F := Ideal) ei i) (HostTerms.sel (F := Ideal)))

/-! ### The arguments at the boundaries where they are read -/

theorem arg_at2 (c : Dev nD) (b : Ref sig .tc) (h0 : ∀ w, Pipeline.arrRef spec0 w ≠ b) (h1 : ∀ w, Pipeline.arrRef spec1 w ≠ b) :
    W2 m ρ c (Proc.devRef .tc b) = m ((c : Thread nD τ).loc b) :=
  (W2_of_ne m ρ c b h1).trans (W1_of_ne m ρ c b h0)

/-! ### The two products -/

theorem h_user (c : Dev nD) :
    W2 m ρ c (Proc.devRef .tc main_v0)
      = RowProduct.prod (A := 100000) (K := 100) (M := 8) (m ((c : Thread nD τ).loc main_arg0)) (m ((c : Thread nD τ).loc main_arg6)) :=
  (W2_of_ne m ρ c main_v0 (by decide)).trans ((W1_arr m ρ c 2).trans (Linear0.final (V0 m ρ) c))

theorem h_item (c : Dev nD) :
    W2 m ρ c (Proc.devRef .tc main_v1)
      = RowProduct.prod (A := 100000) (K := 100) (M := 8) (m ((c : Thread nD τ).loc main_arg2)) (m ((c : Thread nD τ).loc main_arg8)) := by
  refine ((W2_arr m ρ c 2).trans (Linear1.final (V1 m ρ) c)).trans ?_
  unfold Linear1.whole
  have e2 : V1 m ρ c main_arg2 = m ((c : Thread nD τ).loc main_arg2) := W1_of_ne m ρ c main_arg2 (by decide)
  have e8 : V1 m ρ c main_arg8 = m ((c : Thread nD τ).loc main_arg8) := W1_of_ne m ρ c main_arg8 (by decide)
  rw [e2, e8]

/-! ### The two embeddings -/

theorem emb_user (c : Dev nD) :
    W8 m ρ c (Proc.devRef .tc main_v97)
      = emb (m ((c : Thread nD τ).loc main_arg0)) (m ((c : Thread nD τ).loc main_arg6)) (m ((c : Thread nD τ).loc main_arg1))
          (m ((c : Thread nD τ).loc main_arg7)) := by
  refine ((W8_arr m ρ c 2).trans (BiasTanh2.final (V7 m ρ) c)).trans ?_
  unfold BiasTanh2.whole emb
  have ea : V7 m ρ c main_v48 = HostTerms.agg (F := Ideal) (W2 m ρ c (Proc.devRef .tc main_v0)) (W2 m ρ c (Proc.devRef .tc main_arg1)) :=
    HostRead.agg_user (W2 m ρ c)
  have eb : V7 m ρ c main_v96 = shapeCast S1x8 (W2 m ρ c (Proc.devRef .tc main_arg7)) shapeCasts_S8_S1x8 :=
    HostRead.bias_user (W2 m ρ c)
  rw [ea, eb, h_user, arg_at2 m ρ c main_arg1 (by decide) (by decide), arg_at2 m ρ c main_arg7 (by decide) (by decide)]

theorem emb_item (c : Dev nD) :
    W10 m ρ c (Proc.devRef .tc main_v99)
      = emb (m ((c : Thread nD τ).loc main_arg2)) (m ((c : Thread nD τ).loc main_arg8)) (m ((c : Thread nD τ).loc main_arg3))
          (m ((c : Thread nD τ).loc main_arg9)) := by
  refine ((W10_arr m ρ c 2).trans (BiasTanh3.final (V9 m ρ) c)).trans ?_
  unfold BiasTanh3.whole emb
  have ea : V9 m ρ c main_v95 = HostTerms.agg (F := Ideal) (W2 m ρ c (Proc.devRef .tc main_v1)) (W2 m ρ c (Proc.devRef .tc main_arg3)) :=
    (HostRead.keep3 (W8 m ρ c) main_v95 (Or.inl rfl)).trans ((W8_of_ne m ρ c main_v95 (by decide)).trans (HostRead.agg_item (W2 m ρ c)))
  have eb : V9 m ρ c main_v98 = shapeCast S1x8 (m ((c : Thread nD τ).loc main_arg9)) shapeCasts_S8_S1x8 := by
    refine (HostRead.bias_item (W8 m ρ c)).trans ?_
    have e9 : W8 m ρ c (Proc.devRef .tc main_arg9) = m ((c : Thread nD τ).loc main_arg9) :=
      (W8_of_ne m ρ c main_arg9 (by decide)).trans ((HostRead.keep2 (W2 m ρ c) main_arg9 (Or.inr (Or.inr rfl))).trans
        (arg_at2 m ρ c main_arg9 (by decide) (by decide)))
    rw [e9]
  rw [ea, eb, h_item, arg_at2 m ρ c main_arg3 (by decide) (by decide)]
  rfl

/-! ### The pair indices and the first embedding at the decode's host operations -/

theorem pair_at10 (c : Dev nD) (b : Ref sig .tc) (hb : b = main_arg4 ∨ b = main_arg5)
    (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) :
    W10 m ρ c (Proc.devRef .tc b) = m ((c : Thread nD τ).loc b) :=
  (W10_of_ne m ρ c b h3).trans ((HostRead.keep3 (W8 m ρ c) b (Or.inr (Or.inr hb))).trans
    ((W8_of_ne m ρ c b h2).trans ((HostRead.keep2 (W2 m ρ c) b (hb.elim Or.inl (fun h => Or.inr (Or.inl h)))).trans
      (arg_at2 m ρ c b h0 h1))))

theorem emb_user_at10 (c : Dev nD) :
    W10 m ρ c (Proc.devRef .tc main_v97)
      = emb (m ((c : Thread nD τ).loc main_arg0)) (m ((c : Thread nD τ).loc main_arg6)) (m ((c : Thread nD τ).loc main_arg1))
          (m ((c : Thread nD τ).loc main_arg7)) :=
  (W10_of_ne m ρ c main_v97 (by decide)).trans ((HostRead.keep3 (W8 m ρ c) main_v97 (Or.inr (Or.inl rfl))).trans (emb_user m ρ c))

/-! ### The result -/

theorem result_eq (c : Dev nD) :
    W19 m ρ c (Proc.devRef .tc main_v129)
      = score
          (emb (m ((c : Thread nD τ).loc main_arg0)) (m ((c : Thread nD τ).loc main_arg6)) (m ((c : Thread nD τ).loc main_arg1))
            (m ((c : Thread nD τ).loc main_arg7)))
          (emb (m ((c : Thread nD τ).loc main_arg2)) (m ((c : Thread nD τ).loc main_arg8)) (m ((c : Thread nD τ).loc main_arg3))
            (m ((c : Thread nD τ).loc main_arg9)))
          (m ((c : Thread nD τ).loc main_arg4)) (m ((c : Thread nD τ).loc main_arg5)) := by
  refine (HostRead.result_eq (W18 m ρ c)).trans ?_
  unfold score
  refine congrArg (HostTerms.unfold (F := Ideal)) ?_
  refine ((W18_arr m ρ c 3).trans (Decode.final (V17 m ρ) c)).trans ?_
  unfold Decode.whole
  have eu : V17 m ρ c main_v116 = HostTerms.folded (F := Ideal) (W10 m ρ c (Proc.devRef .tc main_v97)) (W10 m ρ c (Proc.devRef .tc main_arg4)) :=
    HostRead.folded_user (W10 m ρ c)
  have ei : V17 m ρ c main_v117 = HostTerms.folded (F := Ideal) (W10 m ρ c (Proc.devRef .tc main_v99)) (W10 m ρ c (Proc.devRef .tc main_arg5)) :=
    HostRead.folded_item (W10 m ρ c)
  have es : V17 m ρ c main_v126 = HostTerms.sel (F := Ideal) := HostRead.sel_eq (W10 m ρ c)
  rw [eu, ei, es, emb_user_at10, emb_item,
    pair_at10 m ρ c main_arg4 (Or.inl rfl) (by decide) (by decide) (by decide) (by decide),
    pair_at10 m ρ c main_arg5 (Or.inr rfl) (by decide) (by decide) (by decide) (by decide)]

end Cert.KernelIdeal.KValue

end
-- ==== Proof.TermsR.lean ====
/-
  The reference program's arithmetic, as whole-array functions.

  Per graph: the projected features h = x·W; the edge list with one loop per node appended (the 100000 node numbers after
  the 3200000 listed sources and after the listed targets); the in-degree counted over all 3300000 edges; its inverse
  square root where positive; the messages h(source(e), f) · dinv(source(e)) · dinv(target(e)) added at their targets;
  the bias added and tanh applied. The score of a pair is the sum over the eight features of the two gathered rows' products.
-/
import proofs.«122243_j12000138625507_2_alg».proof.Proof.Gen.ReferenceIdeal

noncomputable section

namespace Cert.ReferenceIdeal.HostTerms

open Cert.ReferenceIdeal Cert.ReferenceIdeal.Gen Idealize.ShloMosaic

variable {F : FTy → Type} [FloatOps F]

/-- Row 0 of the edge list, the node numbers appended: the source of every edge, the loops included. -/
def srcAll (adj : (⟨S2x3200000, .i32⟩ : BufTy).Contents (Elt F)) : (⟨S3300000, .i32⟩ : BufTy).Contents (Elt F) :=
  concatenate S3300000 0 [⟨S3200000, (shapeCast _ (extractStridedSlice S1x3200000 ![0, 0] adj slices_S2x3200000_S1x3200000_0_0) shapeCasts_S1x3200000_S3200000)⟩, ⟨S100000, (iotaInDim S100000 32 0)⟩] concatenates_S3200000_S100000_S3300000_d0

/-- Row 1 of the edge list, the node numbers appended: the target of every edge, the loops included. -/
def dstAll (adj : (⟨S2x3200000, .i32⟩ : BufTy).Contents (Elt F)) : (⟨S3300000, .i32⟩ : BufTy).Contents (Elt F) :=
  concatenate S3300000 0 [⟨S3200000, (shapeCast _ (extractStridedSlice S1x3200000 ![1, 0] adj slices_S2x3200000_S1x3200000_1_0) shapeCasts_S1x3200000_S3200000)⟩, ⟨S100000, (iotaInDim S100000 32 0)⟩] concatenates_S3200000_S100000_S3300000_d0

/-- A node index as jnp normalises it before a gather: a negative index counts from the end. -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32)))
    (addi v (broadcastInDim S3300000 ![] bcast_S_S3300000 (constantI S_ 32 100000#32))) v

/-- The indices as the one-column array a gather or a scatter takes. -/
def col (v : (⟨S3300000, .i32⟩ : BufTy).Contents (Elt F)) : (⟨S3300000x1, .i32⟩ : BufTy).Contents (Elt F) :=
  broadcastInDim S3300000x1 ![0] bcast_S3300000_S3300000x1_0 v

/-- The degree of every node: the edges, loops included, that end there. -/
def deg (adj : (⟨S2x3200000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (col (dstAll adj))
    (broadcastInDim S3300000 ![] bcast_S_S3300000 (constant S_ .f32 0x3F800000#32))

/-- The inverse square root of a degree where the degree is positive, zero elsewhere. -/
def dinvOf (dg : (⟨S100000, .f32⟩ : BufTy).Contents (Elt F)) : (⟨S100000, .f32⟩ : BufTy).Contents (Elt F) :=
  select (cmpf (F := F) .ogt dg (broadcastInDim S100000 ![] bcast_S_S100000 (constant S_ .f32 0x00000000#32)))
    (Host.rsqrt dg)
    (broadcastInDim S100000 ![] bcast_S_S100000 (id (constant S_ .f32 0x00000000#32)))

/-- The weight of every edge: the two ends' inverse square roots multiplied. -/
def edgeNorm (adj : (⟨S2x3200000, .i32⟩ : BufTy).Contents (Elt F)) : (⟨S3300000, .f32⟩ : BufTy).Contents (Elt F) :=
  mulf (Host.gather gather_S100000_S3300000x1_S3300000_n_0_n_n_0_1_1 (dinvOf (deg adj)) (col (wrap (srcAll adj))))
    (Host.gather gather_S100000_S3300000x1_S3300000_n_0_n_n_0_1_1 (dinvOf (deg adj)) (col (wrap (dstAll adj))))

/-- One graph's embedding: the messages added at their targets, the bias added, tanh applied. -/
def emb (h : (⟨S100000x8, .f32⟩ : BufTy).Contents (Elt F)) (adj : (⟨S2x3200000, .i32⟩ : BufTy).Contents (Elt F))
    (b : (⟨S8, .f32⟩ : BufTy).Contents (Elt F)) : (⟨S100000x8, .f32⟩ : BufTy).Contents (Elt F) :=
  Host.tanh
    (addf
      (Host.scatterAdd scatter_S100000x8_S3300000x1_S3300000x8_1_0_0_1
        (broadcastInDim S100000x8 ![] bcast_S_S100000x8 (constant S_ .f32 0x00000000#32))
        (col (dstAll adj))
        (mulf (Host.gather gather_S100000x8_S3300000x1_S3300000x8_1_0_n_n_0_1_18 h (col (wrap (srcAll adj))))
          (broadcastInDim S3300000x8 ![0, 1] bcast_S3300000x1_S3300000x8_0_1
            (broadcastInDim S3300000x1 ![0] bcast_S3300000_S3300000x1_0 (edgeNorm adj)))))
      (broadcastInDim S100000x8 ![0, 1] bcast_S1x8_S100000x8_0_1 (broadcastInDim S1x8 ![1] bcast_S8_S1x8_1 b)))

/-- The projected features. -/
def proj (x : (⟨S100000x100, .f32⟩ : BufTy).Contents (Elt F)) (w : (⟨S100x8, .f32⟩ : BufTy).Contents (Elt F)) :
    (⟨S100000x8, .f32⟩ : BufTy).Contents (Elt F) :=
  Host.dotGeneral dot_S100000x100_S100x8_S100000x8_1_0_0_1_n_n none x w

/-- A pair index as jnp normalises it before a gather. -/
def wrapPair (v : (⟨S1000000, .i32⟩ : BufTy).Contents (Elt F)) : (⟨S1000000, .i32⟩ : BufTy).Contents (Elt F) :=
  select (cmpi .slt v (broadcastInDim S1000000 ![] bcast_S_S1000000 (constantI S_ 32 0#32)))
    (addi v (broadcastInDim S1000000 ![] bcast_S_S1000000 (constantI S_ 32 100000#32))) v

/-- The scores: the two gathered rows multiplied entry by entry and summed over the eight features. -/
def score (eu ei : (⟨S100000x8, .f32⟩ : BufTy).Contents (Elt F)) (u i : (⟨S1000000, .i32⟩ : BufTy).Contents (Elt F)) :
    (⟨S1000000, .f32⟩ : BufTy).Contents (Elt F) :=
  Host.reduceAdd
    (mulf (Host.gather gather_S100000x8_S1000000x1_S1000000x8_1_0_n_n_0_1_18 eu (broadcastInDim S1000000x1 ![0] bcast_S1000000_S1000000x1_0 (wrapPair u)))
      (Host.gather gather_S100000x8_S1000000x1_S1000000x8_1_0_n_n_0_1_18 ei (broadcastInDim S1000000x1 ![0] bcast_S1000000_S1000000x1_0 (wrapPair i))))
    (constant S_ .f32 0x00000000#32) reducesTo_S1000000x8_S1000000_d1 h_S_

end Cert.ReferenceIdeal.HostTerms

end
-- ==== Proof.RefValue.lean ====
/-
  The reference's result, in the whole-array functions of its arithmetic: the score of the two graphs' embeddings at the
  pair indices.
-/
import proofs.«122243_j12000138625507_2_alg».proof.Proof.RefRun
import proofs.«122243_j12000138625507_2_alg».proof.Proof.TermsR

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxHeartbeats 4000000 in
theorem result_eq (m : (ℓ : Loc nD τ sig) → Buf (Elt F) ℓ) (c : Dev nD) :
    RunP.res_main_v111 m c
      = HostTerms.score
          (HostTerms.emb (HostTerms.proj (m ((c.tc : Thread nD τ).loc main_arg0)) (m ((c.tc : Thread nD τ).loc main_arg6)))
            (m ((c.tc : Thread nD τ).loc main_arg1)) (m ((c.tc : Thread nD τ).loc main_arg7)))
          (HostTerms.emb (HostTerms.proj (m ((c.tc : Thread nD τ).loc main_arg2)) (m ((c.tc : Thread nD τ).loc main_arg8)))
            (m ((c.tc : Thread nD τ).loc main_arg3)) (m ((c.tc : Thread nD τ).loc main_arg9)))
          (m ((c.tc : Thread nD τ).loc main_arg4)) (m ((c.tc : Thread nD τ).loc main_arg5)) := by
  unfold RunP.res_main_v111
  rfl

end Cert.ReferenceIdeal.RefValue

end
-- ==== Proof.LibLeadingAxis.lean ====
/-
  Gather and accumulating scatter along the LEADING axis, read at coordinates (any extents).

  A start index is one scalar per update row: the indices are an array [E, 1] whose second axis is the index vector.
  * gather of a vector [N] (result [E]) and of the rows of a matrix [N, C] (result [E, C]): entry e (or (e, f)) is the
    operand at row clampRow (idx (e, 0)) (and column f): the start read signed and clamped into [0, N-1];
  * scatter-add into a vector [N] from updates [E], and into a matrix [N, C] from update rows [E, C], at the ideal
    instance: entry n (or (n, f)) is the operand's entry plus the sum over e of the updates whose start index, read
    signed and NOT clamped, is exactly n; an update whose index is outside [0, N) adds nothing.
-/
import Idealize.ShloMosaic.Lib.ValueIdx
import Idealize.ShloMosaic.PureOps.Ideal.Laws

noncomputable section

namespace Idealize.ShloMosaic.LeadingAxis

open Idealize.ShloMosaic Idealize.ShloMosaic.ValueIdx

/-- The row a start index names for a gather: read as a signed integer and clamped into [0, N-1]. -/
def clampRow (N : Nat) (hN : 0 < N) {w : Nat} (b : BitVec w) : Fin N := ⟨min b.toInt.toNat (N - 1), by omega⟩

/-- A sum over the index set of a rank-1 shape is the sum over its one coordinate. -/
theorem sum_idx1 {M : Type*} [AddCommMonoid M] {n : Nat} (g : (⟨1, ![n]⟩ : Shape).Idx → M) :
    ∑ i, g i = ∑ a : Fin n, g (ix1 a) := by
  refine Fintype.sum_equiv ⟨fun i => i 0, fun a => ix1 a, fun i => (eq_ix1 i).symm, fun _ => rfl⟩ _ _ (fun i => ?_)
  exact congrArg g (eq_ix1 i)

/-! ## Gather -/

section Gather
variable {α : Type}

/-- x[idx] for a vector x : [N] and indices [E, 1]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- x[idx] for the rows of a matrix x : [N, C] and indices [E, 1]. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowg_start0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (0 : Fin 2) = min (idx (ix2 e 0)).toInt.toNat (N - 1) := by
  unfold GatherDims.start
  rw [dif_pos (show (0 : Fin 2) ∈ (rowGatherDims N C E wf).startIndexMap from List.mem_singleton.mpr rfl)]
  have hsi : (rowGatherDims N C E wf).siIdx (ix2 e f) ⟨List.idxOf (0 : Fin 2) (rowGatherDims N C E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowg_start1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (1 : Fin 2) = 0 := by
  unfold GatherDims.start
  rw [dif_neg (show (1 : Fin 2) ∉ (rowGatherDims N C E wf).startIndexMap from by
    intro h; exact absurd (List.mem_singleton.mp h) (by simp))]

theorem rowg_off0 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (0 : Fin 2) = 0 :=
  GatherDims.offCoord_eq_zero _ _ _ (fun h => ((GatherDims.mem_sKept _ _).mp h).1 (List.mem_singleton.mpr rfl))

theorem rowg_off1 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (1 : Fin 2) = f.val := by
  unfold GatherDims.offCoord
  rw [dif_pos ((GatherDims.mem_sKept _ _).mpr ⟨fun h => absurd (List.mem_singleton.mp h) (by simp), List.not_mem_nil⟩)]
  rfl

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N C E wf) x idx (ix2 e f) = x (ix2 (clampRow N hN (idx (ix2 e 0))) f) := by
  unfold Host.gather
  congr 1
  funext a
  refine Fin.ext ?_
  match a with
  | ⟨0, _⟩ =>
    show (rowGatherDims N C E wf).start (ix2 e f) idx (0 : Fin 2) + (rowGatherDims N C E wf).batchCoord (ix2 e f) (0 : Fin 2)
      + (rowGatherDims N C E wf).offCoord (ix2 e f) (0 : Fin 2) = min (idx (ix2 e 0)).toInt.toNat (N - 1)
    rw [GatherDims.batchCoord_eq_zero _ _ _ List.not_mem_nil, rowg_start0, rowg_off0, Nat.add_zero]
  | ⟨1, _⟩ =>
    show (rowGatherDims N C E wf).start (ix2 e f) idx (1 : Fin 2) + (rowGatherDims N C E wf).batchCoord (ix2 e f) (1 : Fin 2)
      + (rowGatherDims N C E wf).offCoord (ix2 e f) (1 : Fin 2) = f.val
    rw [GatherDims.batchCoord_eq_zero _ _ _ List.not_mem_nil, rowg_start1, rowg_off1, Nat.add_zero, Nat.zero_add]

end Gather

/-! ## Scatter-add at the ideal instance -/

section Scatter
variable {φ : FTy}

/-- zeros[N].at[idx].add(upd) for updates [E] and indices [E, 1]. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vec_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx (0 : Fin 1) = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vec_window {N E : Nat} (wf : ScatterDims.WF ⟨1, ![N]⟩ ⟨2, ![E, 1]⟩ ⟨1, ![E]⟩ [] [0] [0] 1) (e : Fin E) :
    (vecScatterDims N E wf).window (ix1 e) (0 : Fin 1) = 0 := by
  unfold ScatterDims.window
  rw [dif_neg (show (0 : Fin 1) ∉ (vecScatterDims N E wf).sKept from fun h =>
    (List.mem_filter.mp h).2 |> fun h2 => by simp at h2)]

/-- Update e lands on entry n exactly when its start index, read signed, is n. -/
theorem vec_lands_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  split
  · rename_i h
    rw [Option.some.injEq]
    constructor
    · intro heq
      have h0 := congrArg (fun (i : (⟨1, ![N]⟩ : Shape).Idx) => (i 0).val) heq
      simp only [vec_start, vec_window] at h0
      have := (h 0).1
      rw [vec_start, vec_window] at this
      show (idx (ix2 e 0)).toInt = ((n.val : Nat) : Int)
      have hn : ((ix1 n : (⟨1, ![N]⟩ : Shape).Idx) 0).val = n.val := rfl
      omega
    · intro ht
      funext a
      obtain rfl : a = 0 := Subsingleton.elim _ _
      refine Fin.ext ?_
      show ((vecScatterDims N E wf).start (ix1 e) idx 0 + ((vecScatterDims N E wf).window (ix1 e) 0 : Nat)).toNat = n.val
      rw [vec_start, vec_window, ht]
      simp
  · rename_i h
    constructor
    · intro heq; exact absurd heq (by simp)
    · intro ht
      refine absurd (fun a => ?_) h
      obtain rfl : a = 0 := Subsingleton.elim _ _
      rw [vec_start, vec_window, ht]
      have : n.val < N := n.isLt
      constructor
      · simp
      · show ((n.val : Int) + ((0 : Nat) : Int)) < ((N : Nat) : Int)
        omega

theorem scatterAdd_vec_apply {N E w : Nat} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e : Fin E, if (idx (ix2 e 0)).toInt = (n.val : Int) then upd (ix1 e) else 0 := by
  show Ideal.hostScatterAdd (vecScatterDims N E wf) x idx upd (ix1 n) = _
  unfold Ideal.hostScatterAdd
  congr 1
  rw [Finset.sum_filter, sum_idx1]
  refine Finset.sum_congr rfl (fun e _ => ?_)
  simp only [vec_lands_iff]

/-- zeros[N, C].at[idx].add(upd) for update rows [E, C] and indices [E, 1]. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem row_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (0 : Fin 2) = (idx (ix2 e 0)).toInt := by
  unfold ScatterDims.start
  rw [dif_pos (show (0 : Fin 2) ∈ (rowScatterDims N C E wf).scatterDimsToOperandDims from List.mem_singleton.mpr rfl)]
  have hsi : (rowScatterDims N C E wf).siIdx (ix2 e f) ⟨List.idxOf (0 : Fin 2) (rowScatterDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem row_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (1 : Fin 2) = 0 := by
  unfold ScatterDims.start
  rw [dif_neg (show (1 : Fin 2) ∉ (rowScatterDims N C E wf).scatterDimsToOperandDims from fun h =>
    absurd (List.mem_singleton.mp h) (by simp))]

theorem row_window0 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (0 : Fin 2) = 0 := by
  unfold ScatterDims.window
  rw [dif_neg (show (0 : Fin 2) ∉ (rowScatterDims N C E wf).sKept from fun h =>
    (List.mem_filter.mp h).2 |> fun h2 => by simp at h2)]

theorem row_window1 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (1 : Fin 2) = f.val := by
  unfold ScatterDims.window
  rw [dif_pos (show (1 : Fin 2) ∈ (rowScatterDims N C E wf).sKept from
    List.mem_filter.mpr ⟨List.mem_finRange _, by simp⟩)]
  rfl

/-- Update (e, f') lands on entry (n, f) exactly when row e's start index, read signed, is n, and f' = f. -/
theorem row_lands_iff {N C E w : Nat} (wf : ScatterDims.WF ⟨2, ![N, C]⟩ ⟨2, ![E, 1]⟩ ⟨2, ![E, C]⟩ [1] [0] [0] 1)
    (idx : IVec ⟨2, ![E, 1]⟩ w) (e : Fin E) (f' : Fin C) (n : Fin N) (f : Fin C) :
    (rowScatterDims N C E wf).resultIdx? (ix2 e f') idx = some (ix2 n f)
      ↔ (idx (ix2 e 0)).toInt = (n.val : Int) ∧ f' = f := by
  unfold ScatterDims.resultIdx?
  split
  · rename_i h
    rw [Option.some.injEq]
    constructor
    · intro heq
      have h0 := congrArg (fun (i : (⟨2, ![N, C]⟩ : Shape).Idx) => (i 0).val) heq
      have h1 := congrArg (fun (i : (⟨2, ![N, C]⟩ : Shape).Idx) => (i 1).val) heq
      simp only [row_start0, row_window0, row_start1, row_window1] at h0 h1
      have hp := (h 0).1
      rw [row_start0, row_window0] at hp
      have hn : ((ix2 n f : (⟨2, ![N, C]⟩ : Shape).Idx) 0).val = n.val := rfl
      have hf : ((ix2 n f : (⟨2, ![N, C]⟩ : Shape).Idx) 1).val = f.val := rfl
      refine ⟨?_, Fin.ext ?_⟩
      · show (idx (ix2 e 0)).toInt = ((n.val : Nat) : Int)
        omega
      · omega
    · rintro ⟨ht, rfl⟩
      funext a
      refine Fin.ext ?_
      match a with
      | ⟨0, _⟩ =>
        show ((rowScatterDims N C E wf).start (ix2 e f') idx 0 + ((rowScatterDims N C E wf).window (ix2 e f') 0 : Nat)).toNat = n.val
        rw [row_start0, row_window0, ht]; simp
      | ⟨1, _⟩ =>
        show ((rowScatterDims N C E wf).start (ix2 e f') idx 1 + ((rowScatterDims N C E wf).window (ix2 e f') 1 : Nat)).toNat = f'.val
        rw [row_start1, row_window1]; simp
  · rename_i h
    constructor
    · intro heq; exact absurd heq (by simp)
    · rintro ⟨ht, rfl⟩
      refine absurd (fun a => ?_) h
      match a with
      | ⟨0, _⟩ =>
        show 0 ≤ (rowScatterDims N C E wf).start (ix2 e f') idx 0 + ((rowScatterDims N C E wf).window (ix2 e f') 0 : Nat)
          ∧ (rowScatterDims N C E wf).start (ix2 e f') idx 0 + ((rowScatterDims N C E wf).window (ix2 e f') 0 : Nat) < ((N : Nat) : Int)
        rw [row_start0, row_window0, ht]
        have : n.val < N := n.isLt
        constructor <;> simp <;> omega
      | ⟨1, _⟩ =>
        show 0 ≤ (rowScatterDims N C E wf).start (ix2 e f') idx 1 + ((rowScatterDims N C E wf).window (ix2 e f') 1 : Nat)
          ∧ (rowScatterDims N C E wf).start (ix2 e f') idx 1 + ((rowScatterDims N C E wf).window (ix2 e f') 1 : Nat) < ((C : Nat) : Int)
        rw [row_start1, row_window1]
        have : f'.val < C := f'.isLt
        constructor <;> simp <;> omega

theorem scatterAdd_rows_apply {N C E w : Nat} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (f : Fin C) :
    Host.scatterAdd (rowScatterDims N C E wf) x idx upd (ix2 n f)
      = x (ix2 n f) + ∑ e : Fin E, if (idx (ix2 e 0)).toInt = (n.val : Int) then upd (ix2 e f) else 0 := by
  show Ideal.hostScatterAdd (rowScatterDims N C E wf) x idx upd (ix2 n f) = _
  unfold Ideal.hostScatterAdd
  congr 1
  rw [Finset.sum_filter, sum_idx2]
  refine Finset.sum_congr rfl (fun e _ => ?_)
  simp only [row_lands_iff]
  by_cases ht : (idx (ix2 e 0)).toInt = (n.val : Int)
  · simp only [ht, true_and, if_true]
    rw [Finset.sum_ite_eq' Finset.univ f (fun f' => upd (ix2 e f'))]
    simp
  · simp only [ht, false_and, if_false, Finset.sum_const_zero]

end Scatter

end Idealize.ShloMosaic.LeadingAxis

end
-- ==== Proof.LibGcnSpec.lean ====
/-
  A graph-convolution aggregate over the extended reals, stated once over plain index functions, and the law that lets the
  nodes' own loops be taken out of the edge list.

  An edge list gives every edge e a source word s(e) and a target word d(e). A gather reads the node  row(w): the word
  normalised as jnp does (a negative word counts from the end) and clamped into the table. A scatter-add lands update e on
  node n exactly when the word, read as a signed integer and not clamped, is n. With deg(n) the count of edges landing on n,
  dinv its inverse square root where positive, the aggregate is
      agg(n, f) = z + Σ_{e lands on n} h(row(s e), f) · (dinv(row(s e)) · dinv(row(d e))).
  Appending one loop per node (words i, i for node i) to T listed edges adds, at node n, exactly the term of the loop at n:
  the loop's words are n itself, land on n only, and read row n. No finiteness is used: only that a finite sum splits.
-/
import Idealize.ShloMosaic.PureOps.Ideal.Laws
import Idealize.ShloMosaic.Lib.ValueIdx
import proofs.«122243_j12000138625507_2_alg».proof.Proof.LibLeadingAxis

open scoped BigOperators

noncomputable section

namespace Idealize.ShloMosaic.GcnSpec

open Idealize.ShloMosaic Idealize.ShloMosaic.LeadingAxis

/-- A node word as jnp normalises it before a gather into a table of 100000 rows. -/
def wrap1 (v : BitVec 32) : BitVec 32 := Scalar.select (IntOp.cmpi .slt v 0#32) (IntOp.addi v 100000#32) v

/-- The row a gather reads for a node word. -/
def row (v : BitVec 32) : Fin 100000 := clampRow 100000 (by decide) (wrap1 v)

/-- The inverse square root of a degree where the degree is positive, the zero word elsewhere. -/
def dinv1 (x : EReal) : EReal :=
  Scalar.select (FloatOps.cmpf (F := Ideal) (φ := .f32) .ogt x (Ideal.ofBits .f32 0x00000000#32)) (Ideal.rsqrt x) (Ideal.ofBits .f32 0x00000000#32)

/-- A node number below 100000 as a 32-bit word reads back, signed, as itself. -/
theorem toInt_ofNat (i : Fin 100000) : (BitVec.ofNat 32 i.val).toInt = (i.val : Int) := by
  have hi := i.isLt
  have h32 : (2 : Nat) ^ 32 = 4294967296 := by norm_num
  rw [BitVec.toInt_eq_toNat_cond, BitVec.toNat_ofNat, Nat.mod_eq_of_lt (by omega), if_pos (by omega)]

/-- It is not negative, so normalising leaves it. -/
theorem wrap1_ofNat (i : Fin 100000) : wrap1 (BitVec.ofNat 32 i.val) = BitVec.ofNat 32 i.val := by
  have hi := i.isLt
  unfold wrap1 Scalar.select IntOp.cmpi
  have hs : (BitVec.ofNat 32 i.val).slt 0#32 = false := by
    rw [BitVec.slt_eq_decide, toInt_ofNat]
    simp
  simp [hs]

/-- And a gather reads that very row. -/
theorem row_ofNat (i : Fin 100000) : row (BitVec.ofNat 32 i.val) = i := by
  have hi := i.isLt
  unfold row clampRow
  apply Fin.ext
  show min (wrap1 (BitVec.ofNat 32 i.val)).toInt.toNat (100000 - 1) = i.val
  rw [wrap1_ofNat, toInt_ofNat]
  simp
  omega

/-- A sum over T + N positions of terms kept where a key equals n, when the last N positions carry the keys
    0 … N − 1 in order: the first T positions' sum, and the one term of position T + n. -/
theorem sum_with_loops {M : Type*} [AddCommMonoid M] {N : Nat} (T : Nat) (key : Fin (T + N) → Int) (val : Fin (T + N) → M)
    (n : Fin N) (hkey : ∀ i : Fin N, key (Fin.natAdd T i) = (i.val : Int)) :
    (∑ e : Fin (T + N), if key e = (n.val : Int) then val e else 0)
      = (∑ e : Fin T, if key (Fin.castAdd N e) = (n.val : Int) then val (Fin.castAdd N e) else 0)
        + val (Fin.natAdd T n) := by
  rw [Fin.sum_univ_add]
  congr 1
  have : ∀ i : Fin N, (if key (Fin.natAdd T i) = (n.val : Int) then val (Fin.natAdd T i) else 0)
      = if i = n then val (Fin.natAdd T i) else 0 := by
    intro i
    rw [hkey i]
    by_cases h : i = n
    · subst h; simp
    · have : (i.val : Int) ≠ (n.val : Int) := fun e => h (Fin.ext (by exact_mod_cast e))
      simp [h, this]
  rw [Finset.sum_congr rfl fun i _ => this i, Finset.sum_ite_eq' Finset.univ n]
  simp

end Idealize.ShloMosaic.GcnSpec

end
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibHostRow.lean ====
/-
  The host's row-wise operations on a [a, b] matrix, read at indices given by coordinates, over the extended reals:
  • a vector [a] lifted to the column [a, 1] (broadcast_in_dim along axis 0) reads, at (p, u), the vector's entry p;
  • a column [a, 1] repeated along the rows to [a, b] (broadcast_in_dim along both axes) reads, at (p, q), the column's row p;
  • the two in a row read the vector's entry p;
  • the host's sum along row r from an initial value is the initial value plus Σ_{k < b} of the entries (r, k).
-/
import Idealize.ShloMosaic.PureOps.Ideal.Laws
import Idealize.ShloMosaic.Lib.Pipeline.Value
import Idealize.ShloMosaic.Lib.ValueIdx
import Idealize.ShloMosaic.Lib.IdealHost
import proofs.«122243_j12000138625507_2_alg».proof.Proof.LibRowColumn

open scoped BigOperators

namespace Idealize.ShloMosaic.HostRow

open Idealize.ShloMosaic Idealize.ShloMosaic.ValueIdx

variable {α : Type}

/-- A vector [a] lifted to the column [a, 1] reads, at (p, u), the vector's entry p. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  have hp := p.isLt
  refine broadcastInDim_apply _ h v (ix2 p u) (ix1 p) fun ax => ?_
  match ax with
  | ⟨0, _⟩ =>
    show p.val = if a = 1 then 0 else p.val
    split
    · omega
    · rfl

/-- A column [a, 1] repeated along the rows to [a, b] reads, at (p, q), the column's row p. -/
theorem bcast_a1_ab_apply {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  have hp := p.isLt
  refine broadcastInDim_apply _ h w (ix2 p q) (ix2 p (0 : Fin 1)) fun ax => ?_
  match ax with
  | ⟨0, _⟩ =>
    show p.val = if a = 1 then 0 else p.val
    split
    · omega
    · rfl
  | ⟨1, _⟩ => rfl

/-- A vector [a] lifted to [a, 1] and repeated to [a, b] reads, at (p, q), the vector's entry p. -/
theorem bcast_a_ab_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (bcast_a1_ab_apply _ h2 p q).trans (bcast_a_a1_apply v h1 p 0)

/-- The host's sum along row r of a [a, b] matrix from the initial value: the initial value plus the sum of the row's entries. -/
theorem hostReduceAdd_cols {a b : ℕ} {u : Shape} {φ : FTy} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  refine (hostReduceAdd_apply x init h' hu (ix1 r)).trans ?_
  rw [Ideal.hostReduceAdd_single h' h]
  exact congrArg (init (Shape.Idx.first hu) + ·) (Finset.sum_congr rfl fun k _ => congrArg x (RowColumn.lift_cols h r k))

end Idealize.ShloMosaic.HostRow
-- ==== Proof.GcnK.lean ====
/-
  The idealized kernel's aggregate read at a node and a feature: the listed edges landing on the node, each carrying the
  source's feature times the two ends' inverse square roots of the degree, and the node's own loop as one more term; the
  degree counts the listed edges landing on the node and one for the loop.
-/
import proofs.«122243_j12000138625507_2_alg».proof.Proof.TermsK
import proofs.«122243_j12000138625507_2_alg».proof.Proof.LibGcnSpec
import proofs.«122243_j12000138625507_2_alg».proof.Proof.LibHostRow
import Idealize.ShloMosaic.Lib.Pipeline.Value

set_option maxRecDepth 16384

open scoped BigOperators

noncomputable section

namespace Cert.KernelIdeal.GcnRead

open Cert.KernelIdeal Cert.KernelIdeal.Gen
open Idealize.ShloMosaic Idealize.ShloMosaic.ValueIdx Idealize.ShloMosaic.LeadingAxis Idealize.ShloMosaic.GcnSpec

variable (adj : (⟨S2x3200000, .i32⟩ : BufTy).Contents (Elt Ideal)) (h : (⟨S100000x8, .f32⟩ : BufTy).Contents (Elt Ideal))

/-- The degree of node n: the zero word, the listed edges landing on n each adding the one word, and one more. -/
def degF (d : Fin 3200000 → BitVec 32) (n : Fin 100000) : EReal :=
  (Ideal.ofBits .f32 0x00000000#32 + ∑ e : Fin 3200000, if (d e).toInt = (n.val : Int) then Ideal.ofBits .f32 0x3F800000#32 else 0)
    + Ideal.ofBits .f32 0x3F800000#32

theorem srcRow_apply (e : Fin 3200000) : HostTerms.srcRow (F := Ideal) adj (ix1 e) = adj (ix2 (0 : Fin 2) e) := by
  unfold HostTerms.srcRow
  refine (shapeCast_apply _ shapeCasts_S1x3200000_S3200000 (ix1 e) (ix2 (0 : Fin 1) e) ?_).trans ?_
  · rw [Shape.rowMajor_val_two, Shape.rowMajor_val_one]; show 0 * 3200000 + e.val = e.val; omega
  · exact extractStridedSlice_apply ![0, 0] adj slices_S2x3200000_S1x3200000_0_0 (ix2 (0 : Fin 1) e) (ix2 (0 : Fin 2) e)
      (fun a => match a with
        | ⟨0, _⟩ => by show (0 : Nat) = 0 + 0; rfl
        | ⟨1, _⟩ => by show e.val = 0 + e.val; omega)

theorem dstRow_apply (e : Fin 3200000) : HostTerms.dstRow (F := Ideal) adj (ix1 e) = adj (ix2 (1 : Fin 2) e) := by
  unfold HostTerms.dstRow
  refine (shapeCast_apply _ shapeCasts_S1x3200000_S3200000 (ix1 e) (ix2 (0 : Fin 1) e) ?_).trans ?_
  · rw [Shape.rowMajor_val_two, Shape.rowMajor_val_one]; show 0 * 3200000 + e.val = e.val; omega
  · exact extractStridedSlice_apply ![1, 0] adj slices_S2x3200000_S1x3200000_1_0 (ix2 (0 : Fin 1) e) (ix2 (1 : Fin 2) e)
      (fun a => match a with
        | ⟨0, _⟩ => by show (1 : Nat) = 1 + 0; rfl
        | ⟨1, _⟩ => by show e.val = 0 + e.val; omega)

theorem wrap_apply (v : (⟨S3200000, .i32⟩ : BufTy).Contents (Elt Ideal)) (e : Fin 3200000) :
    HostTerms.wrap (F := Ideal) v (ix1 e) = wrap1 (v (ix1 e)) := rfl

theorem col_apply (v : (⟨S3200000, .i32⟩ : BufTy).Contents (Elt Ideal)) (e : Fin 3200000) :
    HostTerms.col (F := Ideal) v (ix2 e (0 : Fin 1)) = v (ix1 e) :=
  HostRow.bcast_a_a1_apply v bcast_S3200000_S3200000x1_0 e 0

/-- The word a gather reads for edge e's source, and for its target. -/
theorem gsrc_apply (e : Fin 3200000) :
    HostTerms.col (F := Ideal) (HostTerms.wrap (HostTerms.srcRow adj)) (ix2 e (0 : Fin 1)) = wrap1 (adj (ix2 (0 : Fin 2) e)) := by
  rw [col_apply, wrap_apply, srcRow_apply]

theorem gdst_apply (e : Fin 3200000) :
    HostTerms.col (F := Ideal) (HostTerms.wrap (HostTerms.dstRow adj)) (ix2 e (0 : Fin 1)) = wrap1 (adj (ix2 (1 : Fin 2) e)) := by
  rw [col_apply, wrap_apply, dstRow_apply]

/-- The word a scatter reads for edge e's target. -/
theorem sdst_apply (e : Fin 3200000) :
    HostTerms.col (F := Ideal) (HostTerms.dstRow adj) (ix2 e (0 : Fin 1)) = adj (ix2 (1 : Fin 2) e) := by
  rw [col_apply, dstRow_apply]

theorem deg_apply (n : Fin 100000) : HostTerms.deg (F := Ideal) adj (ix1 n) = degF (fun e => adj (ix2 (1 : Fin 2) e)) n := by
  unfold HostTerms.deg degF
  refine (addf_apply _ _ _).trans ?_
  refine congrArg₂ (· + ·) ?_ rfl
  refine (scatterAdd_vec_apply (N := 100000) (E := 3200000) scatter_S100000_S3200000x1_S3200000_n_0_0_1_wf _ _ _ n).trans ?_
  refine congrArg₂ (· + ·) rfl ?_
  refine Finset.sum_congr rfl fun e _ => ?_
  rw [sdst_apply]
  rfl

theorem dinvOf_apply (dg : (⟨S100000, .f32⟩ : BufTy).Contents (Elt Ideal)) (n : Fin 100000) :
    HostTerms.dinvOf (F := Ideal) dg (ix1 n) = dinv1 (dg (ix1 n)) := rfl

/-- The inverse square root of node k's degree. -/
def dv (k : Fin 100000) : EReal := dinv1 (degF (fun e => adj (ix2 (1 : Fin 2) e)) k)

theorem dinv_apply (k : Fin 100000) : HostTerms.dinvOf (F := Ideal) (HostTerms.deg adj) (ix1 k) = dv adj k := by
  rw [dinvOf_apply, deg_apply]; rfl

theorem edgeNorm_apply (e : Fin 3200000) :
    HostTerms.edgeNorm (F := Ideal) adj (ix1 e) = dv adj (row (adj (ix2 (0 : Fin 2) e))) * dv adj (row (adj (ix2 (1 : Fin 2) e))) := by
  unfold HostTerms.edgeNorm
  refine (mulf_apply _ _ _).trans ?_
  refine congrArg₂ (· * ·) ?_ ?_
  · refine (gather_vec_apply (N := 100000) (E := 3200000) (by decide) gather_S100000_S3200000x1_S3200000_n_0_n_n_0_1_1_wf _ _ e).trans ?_
    rw [gsrc_apply, dinv_apply]; rfl
  · refine (gather_vec_apply (N := 100000) (E := 3200000) (by decide) gather_S100000_S3200000x1_S3200000_n_0_n_n_0_1_1_wf _ _ e).trans ?_
    rw [gdst_apply, dinv_apply]; rfl

/-- The aggregate at node n, feature f. -/
theorem agg_apply (n : Fin 100000) (f : Fin 8) :
    HostTerms.agg (F := Ideal) h adj (ix2 n f)
      = (Ideal.ofBits .f32 0x00000000#32 + ∑ e : Fin 3200000, if (adj (ix2 (1 : Fin 2) e)).toInt = (n.val : Int) then
            h (ix2 (row (adj (ix2 (0 : Fin 2) e))) f) * (dv adj (row (adj (ix2 (0 : Fin 2) e))) * dv adj (row (adj (ix2 (1 : Fin 2) e)))) else 0)
        + h (ix2 n f) * (dv adj n * dv adj n) := by
  unfold HostTerms.agg
  refine (addf_apply _ _ _).trans ?_
  refine congrArg₂ (· + ·) ?_ ?_
  · refine (scatterAdd_rows_apply (N := 100000) (C := 8) (E := 3200000) scatter_S100000x8_S3200000x1_S3200000x8_1_0_0_1_wf _ _ _ n f).trans ?_
    refine congrArg₂ (· + ·) rfl ?_
    refine Finset.sum_congr rfl fun e _ => ?_
    rw [sdst_apply]
    refine if_congr Iff.rfl ?_ rfl
    refine (mulf_apply _ _ _).trans ?_
    refine congrArg₂ (· * ·) ?_ ?_
    · refine (gather_rows_apply (N := 100000) (C := 8) (E := 3200000) (by decide) gather_S100000x8_S3200000x1_S3200000x8_1_0_n_n_0_1_18_wf _ _ e f).trans ?_
      rw [gsrc_apply]; rfl
    · refine (HostRow.bcast_a_ab_apply _ bcast_S3200000_S3200000x1_0 bcast_S3200000x1_S3200000x8_0_1 e f).trans ?_
      exact edgeNorm_apply adj e
  · refine (mulf_apply _ _ _).trans ?_
    refine congrArg₂ (· * ·) rfl ?_
    refine (HostRow.bcast_a_ab_apply _ bcast_S100000_S100000x1_0 bcast_S100000x1_S100000x8_0_1 n f).trans ?_
    refine (mulf_apply _ _ _).trans ?_
    rw [dinv_apply]

end Cert.KernelIdeal.GcnRead

end
-- ==== Proof.GcnR.lean ====
/-
  The reference's embedding read at a node and a feature: every edge of the list with the nodes' loops appended landing on
  the node carries the source's feature times the two ends' inverse square roots of the degree; the degree counts all those
  edges landing on the node; the bias is added and tanh applied. The first 3200000 positions of the lengthened list are the
  listed edges, the last 100000 the loops: position 3200000 + i holds the words i, i.
-/
import proofs.«122243_j12000138625507_2_alg».proof.Proof.TermsR
import proofs.«122243_j12000138625507_2_alg».proof.Proof.LibGcnSpec
import proofs.«122243_j12000138625507_2_alg».proof.Proof.LibHostRow
import proofs.«122243_j12000138625507_2_alg».proof.Proof.LibAffine
import Idealize.ShloMosaic.Lib.Pipeline.Value

set_option maxRecDepth 16384

open scoped BigOperators

noncomputable section

namespace Cert.ReferenceIdeal.GcnRead

open Cert.ReferenceIdeal Cert.ReferenceIdeal.Gen
open Idealize.ShloMosaic Idealize.ShloMosaic.ValueIdx Idealize.ShloMosaic.LeadingAxis Idealize.ShloMosaic.GcnSpec

variable (adj : (⟨S2x3200000, .i32⟩ : BufTy).Contents (Elt Ideal)) (h : (⟨S100000x8, .f32⟩ : BufTy).Contents (Elt Ideal))
  (b : (⟨S8, .f32⟩ : BufTy).Contents (Elt Ideal))

theorem row0_apply (e : Fin 3200000) :
    shapeCast S3200000 (extractStridedSlice S1x3200000 ![0, 0] adj slices_S2x3200000_S1x3200000_0_0) shapeCasts_S1x3200000_S3200000 (ix1 e)
      = adj (ix2 (0 : Fin 2) e) := by
  refine (shapeCast_apply _ shapeCasts_S1x3200000_S3200000 (ix1 e) (ix2 (0 : Fin 1) e) ?_).trans ?_
  · rw [Shape.rowMajor_val_two, Shape.rowMajor_val_one]; show 0 * 3200000 + e.val = e.val; omega
  · exact extractStridedSlice_apply ![0, 0] adj slices_S2x3200000_S1x3200000_0_0 (ix2 (0 : Fin 1) e) (ix2 (0 : Fin 2) e)
      (fun a => match a with
        | ⟨0, _⟩ => by show (0 : Nat) = 0 + 0; rfl
        | ⟨1, _⟩ => by show e.val = 0 + e.val; omega)

theorem row1_apply (e : Fin 3200000) :
    shapeCast S3200000 (extractStridedSlice S1x3200000 ![1, 0] adj slices_S2x3200000_S1x3200000_1_0) shapeCasts_S1x3200000_S3200000 (ix1 e)
      = adj (ix2 (1 : Fin 2) e) := by
  refine (shapeCast_apply _ shapeCasts_S1x3200000_S3200000 (ix1 e) (ix2 (0 : Fin 1) e) ?_).trans ?_
  · rw [Shape.rowMajor_val_two, Shape.rowMajor_val_one]; show 0 * 3200000 + e.val = e.val; omega
  · exact extractStridedSlice_apply ![1, 0] adj slices_S2x3200000_S1x3200000_1_0 (ix2 (0 : Fin 1) e) (ix2 (1 : Fin 2) e)
      (fun a => match a with
        | ⟨0, _⟩ => by show (1 : Nat) = 1 + 0; rfl
        | ⟨1, _⟩ => by show e.val = 0 + e.val; omega)

/-- A listed position of the lengthened source list holds the listed source. -/
theorem srcAll_listed (e : Fin 3300000) (e0 : Fin 3200000) (he : e.val = e0.val) :
    HostTerms.srcAll (F := Ideal) adj (ix1 e) = adj (ix2 (0 : Fin 2) e0) := by
  unfold HostTerms.srcAll
  refine (concatenate_pair_apply_left (t := S3300000) (s₁ := S3200000) (s₂ := S100000) (0 : Fin 1) _ _ concatenates_S3200000_S100000_S3300000_d0 (ix1 e) rfl (ix1 e0) ?_).trans (row0_apply adj e0)
  intro a
  match a with
  | ⟨0, _⟩ => exact he.symm

/-- A loop's position of the lengthened source list holds the node's own number. -/
theorem srcAll_loop (e : Fin 3300000) (i : Fin 100000) (he : e.val = 3200000 + i.val) :
    HostTerms.srcAll (F := Ideal) adj (ix1 e) = BitVec.ofNat 32 i.val := by
  unfold HostTerms.srcAll
  refine (concatenate_pair_apply_right (t := S3300000) (s₁ := S3200000) (s₂ := S100000) (0 : Fin 1) _ _ concatenates_S3200000_S100000_S3300000_d0 (ix1 e) rfl rfl (ix1 i) ?_ ?_).trans rfl
  · intro a ha
    match a with
    | ⟨0, _⟩ => exact absurd rfl ha
  · show i.val + 3200000 = e.val
    omega

theorem dstAll_listed (e : Fin 3300000) (e0 : Fin 3200000) (he : e.val = e0.val) :
    HostTerms.dstAll (F := Ideal) adj (ix1 e) = adj (ix2 (1 : Fin 2) e0) := by
  unfold HostTerms.dstAll
  refine (concatenate_pair_apply_left (t := S3300000) (s₁ := S3200000) (s₂ := S100000) (0 : Fin 1) _ _ concatenates_S3200000_S100000_S3300000_d0 (ix1 e) rfl (ix1 e0) ?_).trans (row1_apply adj e0)
  intro a
  match a with
  | ⟨0, _⟩ => exact he.symm

theorem dstAll_loop (e : Fin 3300000) (i : Fin 100000) (he : e.val = 3200000 + i.val) :
    HostTerms.dstAll (F := Ideal) adj (ix1 e) = BitVec.ofNat 32 i.val := by
  unfold HostTerms.dstAll
  refine (concatenate_pair_apply_right (t := S3300000) (s₁ := S3200000) (s₂ := S100000) (0 : Fin 1) _ _ concatenates_S3200000_S100000_S3300000_d0 (ix1 e) rfl rfl (ix1 i) ?_ ?_).trans rfl
  · intro a ha
    match a with
    | ⟨0, _⟩ => exact absurd rfl ha
  · show i.val + 3200000 = e.val
    omega

theorem wrap_apply (v : (⟨S3300000, .i32⟩ : BufTy).Contents (Elt Ideal)) (e : Fin 3300000) :
    HostTerms.wrap (F := Ideal) v (ix1 e) = wrap1 (v (ix1 e)) := rfl

theorem col_apply (v : (⟨S3300000, .i32⟩ : BufTy).Contents (Elt Ideal)) (e : Fin 3300000) :
    HostTerms.col (F := Ideal) v (ix2 e (0 : Fin 1)) = v (ix1 e) :=
  HostRow.bcast_a_a1_apply v bcast_S3300000_S3300000x1_0 e 0

/-- The degree of node n over the lengthened list. -/
def degF (n : Fin 100000) : EReal :=
  Ideal.ofBits .f32 0x00000000#32 + ∑ e : Fin 3300000,
    if (HostTerms.dstAll (F := Ideal) adj (ix1 e)).toInt = (n.val : Int) then Ideal.ofBits .f32 0x3F800000#32 else 0

theorem deg_apply (n : Fin 100000) : HostTerms.deg (F := Ideal) adj (ix1 n) = degF adj n := by
  unfold HostTerms.deg degF
  refine (scatterAdd_vec_apply (N := 100000) (E := 3300000) scatter_S100000_S3300000x1_S3300000_n_0_0_1_wf _ _ _ n).trans ?_
  refine congrArg₂ (· + ·) rfl ?_
  refine Finset.sum_congr rfl fun e _ => ?_
  rw [col_apply]
  rfl

theorem dinvOf_apply (dg : (⟨S100000, .f32⟩ : BufTy).Contents (Elt Ideal)) (n : Fin 100000) :
    HostTerms.dinvOf (F := Ideal) dg (ix1 n) = dinv1 (dg (ix1 n)) := rfl

/-- The inverse square root of node k's degree. -/
def dv (k : Fin 100000) : EReal := dinv1 (degF adj k)

theorem dinv_apply (k : Fin 100000) : HostTerms.dinvOf (F := Ideal) (HostTerms.deg adj) (ix1 k) = dv adj k := by
  rw [dinvOf_apply, deg_apply]; rfl

theorem edgeNorm_apply (e : Fin 3300000) :
    HostTerms.edgeNorm (F := Ideal) adj (ix1 e)
      = dv adj (row (HostTerms.srcAll (F := Ideal) adj (ix1 e))) * dv adj (row (HostTerms.dstAll (F := Ideal) adj (ix1 e))) := by
  unfold HostTerms.edgeNorm
  refine (mulf_apply _ _ _).trans ?_
  refine congrArg₂ (· * ·) ?_ ?_
  · refine (gather_vec_apply (N := 100000) (E := 3300000) (by decide) gather_S100000_S3300000x1_S3300000_n_0_n_n_0_1_1_wf _ _ e).trans ?_
    rw [col_apply, wrap_apply, dinv_apply]; rfl
  · refine (gather_vec_apply (N := 100000) (E := 3300000) (by decide) gather_S100000_S3300000x1_S3300000_n_0_n_n_0_1_1_wf _ _ e).trans ?_
    rw [col_apply, wrap_apply, dinv_apply]; rfl

theorem hostTanh_apply {s : Shape} (x : FVec Ideal s .f32) (j : s.Idx) : Host.tanh x j = Ideal.tanh (x j) := rfl

/-- The embedding at node n, feature f. -/
theorem emb_apply (n : Fin 100000) (f : Fin 8) :
    HostTerms.emb (F := Ideal) h adj b (ix2 n f)
      = Ideal.tanh ((Ideal.ofBits .f32 0x00000000#32 + ∑ e : Fin 3300000,
            if (HostTerms.dstAll (F := Ideal) adj (ix1 e)).toInt = (n.val : Int) then
              h (ix2 (row (HostTerms.srcAll (F := Ideal) adj (ix1 e))) f)
                * (dv adj (row (HostTerms.srcAll (F := Ideal) adj (ix1 e))) * dv adj (row (HostTerms.dstAll (F := Ideal) adj (ix1 e))))
            else 0)
          + b (ix1 f)) := by
  unfold HostTerms.emb
  refine (hostTanh_apply _ _).trans (congrArg Ideal.tanh ?_)
  refine (addf_apply _ _ _).trans ?_
  refine congrArg₂ (· + ·) ?_ ?_
  · refine (scatterAdd_rows_apply (N := 100000) (C := 8) (E := 3300000) scatter_S100000x8_S3300000x1_S3300000x8_1_0_0_1_wf _ _ _ n f).trans ?_
    refine congrArg₂ (· + ·) rfl ?_
    refine Finset.sum_congr rfl fun e _ => ?_
    rw [col_apply]
    refine if_congr Iff.rfl ?_ rfl
    refine (mulf_apply _ _ _).trans ?_
    refine congrArg₂ (· * ·) ?_ ?_
    · refine (gather_rows_apply (N := 100000) (C := 8) (E := 3300000) (by decide) gather_S100000x8_S3300000x1_S3300000x8_1_0_n_n_0_1_18_wf _ _ e f).trans ?_
      rw [col_apply, wrap_apply]; rfl
    · refine (HostRow.bcast_a_ab_apply _ bcast_S3300000_S3300000x1_0 bcast_S3300000x1_S3300000x8_0_1 e f).trans ?_
      exact edgeNorm_apply adj e
  · exact Affine.bias_rows_apply (A := 100000) (M := 8) b bcast_S8_S1x8_1 bcast_S1x8_S100000x8_0_1 n f

end Cert.ReferenceIdeal.GcnRead

end
-- ==== Proof.GcnLaw.lean ====
/-
  One graph's embedding in the two programs is one function of the features, the weights, the edge list and the bias.

  The reference appends one loop per node to the edge list and adds every edge's message at its target; the kernel's
  program adds the listed edges' messages and then the node's own loop as one more term, and counts the loop as one more
  in the degree. At node n the loops of the lengthened list that land on n are exactly the loop of n, whose two words are
  n itself: its term is h(n, f) · (dinv(n) · dinv(n)), and it adds one to the degree. So the degrees agree, hence the
  inverse square roots, hence the listed edges' messages, and the two sums differ by that one term, which the kernel's
  program adds by hand. Only associativity of the sum is used; nothing needs to be finite.
-/
import proofs.«122243_j12000138625507_2_alg».proof.Proof.GcnK
import proofs.«122243_j12000138625507_2_alg».proof.Proof.GcnR
import proofs.«122243_j12000138625507_2_alg».proof.Proof.BiasTanh2
import proofs.«122243_j12000138625507_2_alg».proof.Proof.LibRowProduct

set_option maxRecDepth 16384

open scoped BigOperators

noncomputable section

namespace Cert.GcnLaw

open Idealize.ShloMosaic Idealize.ShloMosaic.ValueIdx Idealize.ShloMosaic.LeadingAxis Idealize.ShloMosaic.GcnSpec

variable (adj : (⟨Cert.KernelIdeal.S2x3200000, .i32⟩ : BufTy).Contents (Elt Ideal))

/-- The degrees agree: the loops landing on node k are the one loop of k. -/
theorem deg_eq (k : Fin 100000) :
    Cert.ReferenceIdeal.GcnRead.degF adj k = Cert.KernelIdeal.GcnRead.degF (fun e => adj (ix2 (1 : Fin 2) e)) k := by
  unfold Cert.ReferenceIdeal.GcnRead.degF Cert.KernelIdeal.GcnRead.degF
  rw [add_assoc]
  refine congrArg (Ideal.ofBits .f32 0x00000000#32 + ·) ?_
  refine (sum_with_loops (N := 100000) 3200000
    (fun e => (Cert.ReferenceIdeal.HostTerms.dstAll (F := Ideal) adj (ix1 e)).toInt)
    (fun _ => Ideal.ofBits .f32 0x3F800000#32) k (fun i => ?_)).trans ?_
  · show (Cert.ReferenceIdeal.HostTerms.dstAll (F := Ideal) adj (ix1 (Fin.natAdd 3200000 i))).toInt = _
    rw [Cert.ReferenceIdeal.GcnRead.dstAll_loop adj _ i rfl, toInt_ofNat]
  · refine congrArg (· + Ideal.ofBits .f32 0x3F800000#32) (Finset.sum_congr rfl fun e _ => ?_)
    show (if (Cert.ReferenceIdeal.HostTerms.dstAll (F := Ideal) adj (ix1 (Fin.castAdd 100000 e))).toInt = _ then _ else _) = _
    rw [Cert.ReferenceIdeal.GcnRead.dstAll_listed adj _ e rfl]

/-- Hence the inverse square roots. -/
theorem dv_eq (k : Fin 100000) : Cert.ReferenceIdeal.GcnRead.dv adj k = Cert.KernelIdeal.GcnRead.dv adj k := by
  unfold Cert.ReferenceIdeal.GcnRead.dv Cert.KernelIdeal.GcnRead.dv
  rw [deg_eq]

variable (h : (⟨Cert.KernelIdeal.S100000x8, .f32⟩ : BufTy).Contents (Elt Ideal))

/-- The messages' sums differ by the loop's term. -/
theorem agg_eq (n : Fin 100000) (f : Fin 8) :
    (Ideal.ofBits .f32 0x00000000#32 + ∑ e : Fin 3300000,
        if (Cert.ReferenceIdeal.HostTerms.dstAll (F := Ideal) adj (ix1 e)).toInt = (n.val : Int) then
          h (ix2 (row (Cert.ReferenceIdeal.HostTerms.srcAll (F := Ideal) adj (ix1 e))) f)
            * (Cert.ReferenceIdeal.GcnRead.dv adj (row (Cert.ReferenceIdeal.HostTerms.srcAll (F := Ideal) adj (ix1 e)))
              * Cert.ReferenceIdeal.GcnRead.dv adj (row (Cert.ReferenceIdeal.HostTerms.dstAll (F := Ideal) adj (ix1 e))))
        else 0)
      = Cert.KernelIdeal.HostTerms.agg (F := Ideal) h adj (ix2 n f) := by
  rw [Cert.KernelIdeal.GcnRead.agg_apply, add_assoc]
  refine congrArg (Ideal.ofBits .f32 0x00000000#32 + ·) ?_
  refine (sum_with_loops (N := 100000) 3200000
    (fun e => (Cert.ReferenceIdeal.HostTerms.dstAll (F := Ideal) adj (ix1 e)).toInt)
    (fun e => h (ix2 (row (Cert.ReferenceIdeal.HostTerms.srcAll (F := Ideal) adj (ix1 e))) f)
            * (Cert.ReferenceIdeal.GcnRead.dv adj (row (Cert.ReferenceIdeal.HostTerms.srcAll (F := Ideal) adj (ix1 e)))
              * Cert.ReferenceIdeal.GcnRead.dv adj (row (Cert.ReferenceIdeal.HostTerms.dstAll (F := Ideal) adj (ix1 e)))))
    n (fun i => ?_)).trans ?_
  · show (Cert.ReferenceIdeal.HostTerms.dstAll (F := Ideal) adj (ix1 (Fin.natAdd 3200000 i))).toInt = _
    rw [Cert.ReferenceIdeal.GcnRead.dstAll_loop adj _ i rfl, toInt_ofNat]
  · refine congrArg₂ (· + ·) (Finset.sum_congr rfl fun e _ => ?_) ?_
    · show (if (Cert.ReferenceIdeal.HostTerms.dstAll (F := Ideal) adj (ix1 (Fin.castAdd 100000 e))).toInt = _ then
          h (ix2 (row (Cert.ReferenceIdeal.HostTerms.srcAll (F := Ideal) adj (ix1 (Fin.castAdd 100000 e)))) f)
            * (Cert.ReferenceIdeal.GcnRead.dv adj (row (Cert.ReferenceIdeal.HostTerms.srcAll (F := Ideal) adj (ix1 (Fin.castAdd 100000 e))))
              * Cert.ReferenceIdeal.GcnRead.dv adj (row (Cert.ReferenceIdeal.HostTerms.dstAll (F := Ideal) adj (ix1 (Fin.castAdd 100000 e)))))
          else 0) = _
      rw [Cert.ReferenceIdeal.GcnRead.dstAll_listed adj _ e rfl, Cert.ReferenceIdeal.GcnRead.srcAll_listed adj _ e rfl, dv_eq, dv_eq]
    · show h (ix2 (row (Cert.ReferenceIdeal.HostTerms.srcAll (F := Ideal) adj (ix1 (Fin.natAdd 3200000 n)))) f)
            * (Cert.ReferenceIdeal.GcnRead.dv adj (row (Cert.ReferenceIdeal.HostTerms.srcAll (F := Ideal) adj (ix1 (Fin.natAdd 3200000 n))))
              * Cert.ReferenceIdeal.GcnRead.dv adj (row (Cert.ReferenceIdeal.HostTerms.dstAll (F := Ideal) adj (ix1 (Fin.natAdd 3200000 n))))) = _
      rw [Cert.ReferenceIdeal.GcnRead.dstAll_loop adj _ n rfl, Cert.ReferenceIdeal.GcnRead.srcAll_loop adj _ n rfl, row_ofNat, dv_eq]

/-- The two embeddings are one function. -/
theorem emb_eq (x : (⟨Cert.KernelIdeal.S100000x100, .f32⟩ : BufTy).Contents (Elt Ideal))
    (w : (⟨Cert.KernelIdeal.S100x8, .f32⟩ : BufTy).Contents (Elt Ideal)) (b : (⟨Cert.KernelIdeal.S8, .f32⟩ : BufTy).Contents (Elt Ideal)) :
    Cert.KernelIdeal.BiasTanh2.tanhBias
        (Cert.KernelIdeal.HostTerms.agg (F := Ideal) (RowProduct.prod (A := 100000) (K := 100) (M := 8) x w) adj)
        (shapeCast Cert.KernelIdeal.S1x8 b Cert.KernelIdeal.Gen.shapeCasts_S8_S1x8)
      = Cert.ReferenceIdeal.HostTerms.emb (F := Ideal) (Cert.ReferenceIdeal.HostTerms.proj (F := Ideal) x w) adj b := by
  have hproj : Cert.ReferenceIdeal.HostTerms.proj (F := Ideal) x w = RowProduct.prod (A := 100000) (K := 100) (M := 8) x w :=
    RowProduct.host_eq (A := 100000) (K := 100) (M := 8) none _ x w
  rw [hproj]
  funext j
  obtain ⟨n, f, rfl⟩ : ∃ (n : Fin 100000) (f : Fin 8), j = ix2 n f := ⟨j 0, j 1, eq_ix2 j⟩
  rw [Cert.ReferenceIdeal.GcnRead.emb_apply, agg_eq]
  show Ideal.tanh (_ + shapeCast Cert.KernelIdeal.S1x8 b Cert.KernelIdeal.Gen.shapeCasts_S8_S1x8 (ix2 (0 : Fin 1) f)) = _
  rw [shapeCast_a_1a_apply]

end Cert.GcnLaw

end
-- ==== Proof.LibBlockSum.lean ====
/-
  Two small laws met where one packed (block-diagonal) matrix product stands for several plain ones.
  `sum_eq_sum_block`: in any additive commutative monoid, a finite sum over `P·n` positions of a function that vanishes
  outside the `q`-th run of `n` consecutive positions is the sum over that run — a row of a block-diagonal matrix meets
  one diagonal block only.
  `ereal_abs_sub_comm`: `|a − b| = |b − a|` on the extended reals, the absolute value read as `max x (−x)`; no finiteness
  is needed, since `⊤ − ⊤` and `⊥ − ⊥` are `⊥` in both orders.
-/
import Idealize.ShloMosaic.PureOps.Ideal
import Idealize.ShloMosaic.PureOps.Ideal.Laws

namespace Idealize.ShloMosaic.BlockSum

/-- `|a − b| = |b − a|`, the absolute value read as `max x (−x)`: on the reals by `−(a − b) = b − a`; when an operand is
    infinite both sides are `⊤`, except `⊤ − ⊤` and `⊥ − ⊥`, which are `⊥` in both orders. -/
theorem ereal_abs_sub_comm (a b : EReal) : max (a - b) (-(a - b)) = max (b - a) (-(b - a)) := by
  induction a using EReal.rec <;> induction b using EReal.rec
  all_goals first
    | rfl
    | (rw [← EReal.coe_sub, ← EReal.coe_sub, ← EReal.coe_neg, ← EReal.coe_neg, neg_sub, neg_sub, max_comm])
    | simp

/-- A sum over `P·n` positions of a function that vanishes outside the `q`-th run of `n` consecutive positions is the
    sum over that run. -/
theorem sum_eq_sum_block {M : Type*} [AddCommMonoid M] (P n N : ℕ) (hN : P * n = N) (q : Fin P) (F : Fin N → M)
    (h0 : ∀ x : Fin N, x.val / n ≠ q.val → F x = 0) :
    ∑ x, F x = ∑ d : Fin n, F ⟨q.val * n + d.val, by
      have := q.isLt; have := d.isLt
      calc q.val * n + d.val < q.val * n + n := by omega
        _ = (q.val + 1) * n := by ring
        _ ≤ P * n := Nat.mul_le_mul_right n (by omega)
        _ = N := hN⟩ := by
  subst hN
  rw [← Equiv.sum_comp finProdFinEquiv F, Fintype.sum_prod_type, Finset.sum_eq_single q]
  · refine Finset.sum_congr rfl fun d _ => congrArg F (Fin.ext ?_)
    show d.val + n * q.val = q.val * n + d.val
    rw [Nat.mul_comm, Nat.add_comm]
  · intro p _ hp
    refine Finset.sum_eq_zero fun d _ => h0 _ ?_
    show (d.val + n * p.val) / n ≠ q.val
    have hn : 0 < n := Nat.pos_of_ne_zero fun h => by have := d.isLt; omega
    rw [Nat.add_mul_div_left _ _ hn, Nat.div_eq_of_lt d.isLt, Nat.zero_add]
    exact fun h => hp (Fin.ext h)
  · intro h; exact absurd (Finset.mem_univ q) h

end Idealize.ShloMosaic.BlockSum
-- ==== Proof.DecodeLaw.lean ====
/-
  The decode in its two spellings is one function of two embedding tables and the pair indices.

  The kernel's program gathers the two tables' rows at the pair indices, appends 64 zero rows, reads the [1000064, 8]
  arrays as [62504, 128] — row r holds the pairs 16 r … 16 r + 15, eight lanes each —, multiplies the two arrays entry by
  entry and then by the 0/1 matrix S(l, k) = [l / 8 = k], reads the [62504, 16] result as one vector and keeps its first
  1000000 entries. Entry p = 16 r + k is Σ_l (U(r,l)·V(r,l))·[l / 8 = k]: only the eight lanes 8 k … 8 k + 7 of row r meet a
  one (a lane that meets a zero contributes x · 0 = 0 whatever x is), and those lanes hold the eight features of pair p.
  The reference sums the eight products of pair p's two gathered rows from the zero word. No finiteness is used.
-/
import proofs.«122243_j12000138625507_2_alg».proof.Proof.TermsK
import proofs.«122243_j12000138625507_2_alg».proof.Proof.TermsR
import proofs.«122243_j12000138625507_2_alg».proof.Proof.Decode
import proofs.«122243_j12000138625507_2_alg».proof.Proof.LibGcnSpec
import proofs.«122243_j12000138625507_2_alg».proof.Proof.LibBlockSum
import proofs.«122243_j12000138625507_2_alg».proof.Proof.LibHostRow
import Idealize.ShloMosaic.Lib.KernelVsHost
import Idealize.ShloMosaic.Lib.Pipeline.Value

set_option maxRecDepth 16384

open scoped BigOperators

noncomputable section

namespace Cert.DecodeLaw

open Idealize.ShloMosaic Idealize.ShloMosaic.ValueIdx Idealize.ShloMosaic.LeadingAxis Idealize.ShloMosaic.GcnSpec

variable (eu ei : (⟨Cert.KernelIdeal.S100000x8, .f32⟩ : BufTy).Contents (Elt Ideal))
  (u i : (⟨Cert.KernelIdeal.S1000000, .i32⟩ : BufTy).Contents (Elt Ideal))

section Kernel
open Cert.KernelIdeal Cert.KernelIdeal.Gen

/-- The gathered row of pair p, feature g: the table's row the pair's index names. -/
theorem gathered_apply (emb : (⟨S100000x8, .f32⟩ : BufTy).Contents (Elt Ideal)) (idx : (⟨S1000000, .i32⟩ : BufTy).Contents (Elt Ideal))
    (p : Fin 1000000) (g : Fin 8) :
    Host.gather gather_S100000x8_S1000000x1_S1000000x8_1_0_n_n_0_1_18 emb
        (broadcastInDim S1000000x1 ![0] bcast_S1000000_S1000000x1_0 (HostTerms.wrapPair (F := Ideal) idx)) (ix2 p g)
      = emb (ix2 (row (idx (ix1 p))) g) := by
  refine (gather_rows_apply (N := 100000) (C := 8) (E := 1000000) (by decide) gather_S100000x8_S1000000x1_S1000000x8_1_0_n_n_0_1_18_wf _ _ p g).trans ?_
  rw [HostRow.bcast_a_a1_apply _ bcast_S1000000_S1000000x1_0 p 0]
  rfl

/-- The folded array at row r, lane l, when the pair 16 r + l / 8 is a real pair: its feature l % 8. -/
theorem folded_apply (emb : (⟨S100000x8, .f32⟩ : BufTy).Contents (Elt Ideal)) (idx : (⟨S1000000, .i32⟩ : BufTy).Contents (Elt Ideal))
    (r : Fin 62504) (l : Fin 128) (hq : 16 * r.val + l.val / 8 < 1000000) :
    HostTerms.folded (F := Ideal) emb idx (ix2 r l)
      = emb (ix2 (row (idx (ix1 (⟨16 * r.val + l.val / 8, hq⟩ : Fin 1000000)))) (⟨l.val % 8, Nat.mod_lt _ (by decide)⟩ : Fin 8)) := by
  have hl := l.isLt
  have hr := r.isLt
  unfold HostTerms.folded
  refine (shapeCast_apply _ shapeCasts_S1000064x8_S62504x128 (ix2 r l)
    (ix2 (⟨16 * r.val + l.val / 8, by omega⟩ : Fin 1000064) (⟨l.val % 8, Nat.mod_lt _ (by decide)⟩ : Fin 8)) ?_).trans ?_
  · rw [Shape.rowMajor_val_two, Shape.rowMajor_val_two]
    show (16 * r.val + l.val / 8) * 8 + l.val % 8 = r.val * 128 + l.val
    omega
  · refine (pad_apply_of_inside ![0, 0] ![64, 0] ![0, 0] _ _ pads_S1000000x8_S1000064x8_0640_000 h_S_ _
      (ix2 (⟨16 * r.val + l.val / 8, hq⟩ : Fin 1000000) (⟨l.val % 8, Nat.mod_lt _ (by decide)⟩ : Fin 8)) ?_).trans ?_
    · intro a
      match a with
      | ⟨0, _⟩ => show 16 * r.val + l.val / 8 = 0 + (16 * r.val + l.val / 8) * (0 + 1); omega
      | ⟨1, _⟩ => show l.val % 8 = 0 + (l.val % 8) * (0 + 1); omega
    · exact gathered_apply emb idx _ _

/-- The result vector at p is the decoded array at row p / 16, column p % 16. -/
theorem unfold_apply (out : (⟨S62504x16, .f32⟩ : BufTy).Contents (Elt Ideal)) (p : Fin 1000000) :
    HostTerms.unfold (F := Ideal) out (ix1 p)
      = out (ix2 (⟨p.val / 16, by have := p.isLt; omega⟩ : Fin 62504) (⟨p.val % 16, Nat.mod_lt _ (by decide)⟩ : Fin 16)) := by
  have hp := p.isLt
  unfold HostTerms.unfold
  refine (extractStridedSlice_apply ![0] _ slices_S1000064_S1000000_0 (ix1 p) (ix1 (⟨p.val, by omega⟩ : Fin 1000064))
    (fun a => match a with | ⟨0, _⟩ => by show p.val = 0 + p.val; omega)).trans ?_
  refine shapeCast_apply _ shapeCasts_S62504x16_S1000064 _ _ ?_
  rw [Shape.rowMajor_val_two, Shape.rowMajor_val_one]
  show p.val / 16 * 16 + p.val % 16 = p.val
  omega

/-- The bits of the 0/1 matrix. -/
def selBits : IVec S128x16 1 :=
  cmpi .eq (broadcastInDim S128x16 ![0, 1] bcast_S128x1_S128x16_0_1 (HostTerms.laneGroup (F := Ideal)))
    (broadcastInDim S128x16 ![0, 1] bcast_S1x16_S128x16_0_1 (broadcastInDim S1x16 ![1] bcast_S16_S1x16_1 (iotaInDim S16 32 0)))

/-- Lane l, column k: one exactly when l / 8 = k (all 2048 entries computed). -/
theorem selBits_apply : ∀ (l : Fin 128) (k : Fin 16), selBits (ix2 l k) = if l.val / 8 = k.val then 1#1 else 0#1 := by
  decide +kernel

theorem sel_apply (l : Fin 128) (k : Fin 16) :
    HostTerms.sel (F := Ideal) (ix2 l k) = if l.val / 8 = k.val then (1 : EReal) else 0 := by
  show (((selBits (ix2 l k)).toNat : ℝ) : EReal) = _
  rw [selBits_apply]
  split <;> simp

end Kernel

/-- The decoded array at (r, k), when pair 16 r + k is a real pair: the sum over the eight features of the two gathered
    rows' products. -/
theorem decoded_apply (r : Fin 62504) (k : Fin 16) (hp : 16 * r.val + k.val < 1000000) :
    Cert.KernelIdeal.Decode.rowsTimes (Cert.KernelIdeal.HostTerms.folded (F := Ideal) eu u)
        (Cert.KernelIdeal.HostTerms.folded (F := Ideal) ei i) (Cert.KernelIdeal.HostTerms.sel (F := Ideal)) (ix2 r k)
      = ∑ g : Fin 8, eu (ix2 (row (u (ix1 (⟨16 * r.val + k.val, hp⟩ : Fin 1000000)))) g)
          * ei (ix2 (row (i (ix1 (⟨16 * r.val + k.val, hp⟩ : Fin 1000000)))) g) := by
  have hk := k.isLt
  rw [Cert.KernelIdeal.Decode.rowsTimes_ix2]
  rw [BlockSum.sum_eq_sum_block 16 8 128 rfl k _ (fun l hl => by
    rw [sel_apply, if_neg hl, mul_zero])]
  refine Finset.sum_congr rfl fun g _ => ?_
  have hg := g.isLt
  have hdiv : (k.val * 8 + g.val) / 8 = k.val := by omega
  have hmod : (k.val * 8 + g.val) % 8 = g.val := by omega
  rw [sel_apply, if_pos hdiv, mul_one]
  have hq : 16 * r.val + (k.val * 8 + g.val) / 8 < 1000000 := by rw [hdiv]; exact hp
  rw [folded_apply eu u r ⟨k.val * 8 + g.val, by omega⟩ hq, folded_apply ei i r ⟨k.val * 8 + g.val, by omega⟩ hq]
  have e1 : (⟨16 * r.val + (k.val * 8 + g.val) / 8, hq⟩ : Fin 1000000) = ⟨16 * r.val + k.val, hp⟩ := Fin.ext (by show 16 * r.val + (k.val * 8 + g.val) / 8 = 16 * r.val + k.val; omega)
  have e2 : (⟨(k.val * 8 + g.val) % 8, Nat.mod_lt _ (by decide)⟩ : Fin 8) = g := Fin.ext hmod
  rw [e1, e2]

section Reference
open Cert.ReferenceIdeal Cert.ReferenceIdeal.Gen

/-- The reference's score of pair p. -/
theorem score_apply (eu ei : (⟨S100000x8, .f32⟩ : BufTy).Contents (Elt Ideal)) (u i : (⟨S1000000, .i32⟩ : BufTy).Contents (Elt Ideal))
    (p : Fin 1000000) :
    HostTerms.score (F := Ideal) eu ei u i (ix1 p)
      = Ideal.ofBits .f32 0x00000000#32 + ∑ g : Fin 8, eu (ix2 (row (u (ix1 p))) g) * ei (ix2 (row (i (ix1 p))) g) := by
  unfold HostTerms.score
  refine (HostRow.hostReduceAdd_cols (a := 1000000) (b := 8) _ _ reducesTo_S1000000x8_S1000000_d1 (by decide) h_S_ p).trans ?_
  refine congrArg₂ (· + ·) rfl ?_
  refine Finset.sum_congr rfl fun g _ => ?_
  refine (mulf_apply _ _ _).trans ?_
  refine congrArg₂ (· * ·) ?_ ?_
  · refine (gather_rows_apply (N := 100000) (C := 8) (E := 1000000) (by decide) gather_S100000x8_S1000000x1_S1000000x8_1_0_n_n_0_1_18_wf _ _ p g).trans ?_
    rw [HostRow.bcast_a_a1_apply _ bcast_S1000000_S1000000x1_0 p 0]
    rfl
  · refine (gather_rows_apply (N := 100000) (C := 8) (E := 1000000) (by decide) gather_S100000x8_S1000000x1_S1000000x8_1_0_n_n_0_1_18_wf _ _ p g).trans ?_
    rw [HostRow.bcast_a_a1_apply _ bcast_S1000000_S1000000x1_0 p 0]
    rfl

end Reference

/-- The two decodes are one function. -/
theorem decode_eq :
    Cert.KernelIdeal.HostTerms.unfold (F := Ideal)
        (Cert.KernelIdeal.Decode.rowsTimes (Cert.KernelIdeal.HostTerms.folded (F := Ideal) eu u)
          (Cert.KernelIdeal.HostTerms.folded (F := Ideal) ei i) (Cert.KernelIdeal.HostTerms.sel (F := Ideal)))
      = Cert.ReferenceIdeal.HostTerms.score (F := Ideal) eu ei u i := by
  funext j
  obtain ⟨p, rfl⟩ : ∃ p : Fin 1000000, j = ix1 p := ⟨j 0, eq_ix1 j⟩
  have hp := p.isLt
  rw [unfold_apply, score_apply]
  have hpp : 16 * (p.val / 16) + p.val % 16 < 1000000 := by omega
  rw [decoded_apply eu ei u i ⟨p.val / 16, by omega⟩ ⟨p.val % 16, Nat.mod_lt _ (by decide)⟩ hpp]
  have e : (⟨16 * (p.val / 16) + p.val % 16, hpp⟩ : Fin 1000000) = p := Fin.ext (by show 16 * (p.val / 16) + p.val % 16 = p.val; omega)
  rw [e, Ideal.ofBits_zero_f32, zero_add]

end Cert.DecodeLaw

end
-- ==== Proof.lean ====
/-
  The certificate of a two-tower graph-convolution recommender: a linear projection of each graph's node features, a
  symmetric-normalised aggregation over the edge list with a loop at every node, a bias and tanh, and the dot product of the
  two embeddings at a million (user, item) pairs.

  The kernel's program and the reference compute one function of the arguments on the extended reals.
  * The projections: a block of 10000 rows times the weights in each of ten grid points is the rows of the whole product
    x · W (a change of float format is the identity there).
  * The aggregation: the reference appends the nodes' loops to the edge list; the kernel's program adds a loop's term by
    hand and counts it in the degree. A finite sum splits at the appended positions, and the loops landing on node n are the
    one loop of n: the two aggregates are one sum, re-bracketed.
  * The decode: the kernel's program folds sixteen pairs into a row of 128 lanes and multiplies by the 0/1 matrix that
    keeps, in column k, the eight lanes of pair k; a lane that meets a zero contributes x · 0 = 0. What is left is the sum
    over the eight features, the reference's sum from the zero word.
  Nothing in these laws needs a finite entry: the precondition is not opened.
  The three frames: the two kernel programs' by the launch of their five pipelines over the host operations in between;
  the reference's by its run. The idealized kernel is the kernel's own text read on the extended reals: no operation was
  rewritten, so there is nothing to preserve.
-/
import proofs.«122243_j12000138625507_2_alg».proof.Defs
import proofs.«122243_j12000138625507_2_alg».proof.Proof.Gen.Kernel
import proofs.«122243_j12000138625507_2_alg».proof.Proof.Gen.Kernel.Skeleton
import proofs.«122243_j12000138625507_2_alg».proof.Proof.Gen.Kernel.Launch
import proofs.«122243_j12000138625507_2_alg».proof.Proof.Gen.Kernel.Points
import proofs.«122243_j12000138625507_2_alg».proof.Proof.Gen.Kernel.Frame
import proofs.«122243_j12000138625507_2_alg».proof.Proof.Gen.KernelIdeal
import proofs.«122243_j12000138625507_2_alg».proof.Proof.Gen.KernelIdeal.Skeleton
import proofs.«122243_j12000138625507_2_alg».proof.Proof.Gen.KernelIdeal.Launch
import proofs.«122243_j12000138625507_2_alg».proof.Proof.Gen.KernelIdeal.Points
import proofs.«122243_j12000138625507_2_alg».proof.Proof.Gen.KernelIdeal.Frame
import proofs.«122243_j12000138625507_2_alg».proof.Proof.Gen.ReferenceIdeal
import proofs.«122243_j12000138625507_2_alg».proof.Proof.Gen.Pre_finite_inputs
import proofs.«122243_j12000138625507_2_alg».proof.Proof.RunValue
import proofs.«122243_j12000138625507_2_alg».proof.Proof.KValue
import proofs.«122243_j12000138625507_2_alg».proof.Proof.RefRun
import proofs.«122243_j12000138625507_2_alg».proof.Proof.RefValue
import proofs.«122243_j12000138625507_2_alg».proof.Proof.GcnLaw
import proofs.«122243_j12000138625507_2_alg».proof.Proof.DecodeLaw
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both idealized programs end at the score of the two graphs' embeddings at the pair indices. -/
theorem algebraic : Cert.algebraic_KernelIdeal_ReferenceIdeal := by
  intro m ρ m' ρ' _ hagree
  refine ⟨fun c => Cert.KernelIdeal.KValue.score
      (Cert.KernelIdeal.KValue.emb (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)))
      (Cert.KernelIdeal.KValue.emb (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run (Cert.KernelIdeal.defs (F := Ideal)) _ _).mono
      (fun r h c => ⟨(h c).1.trans (Cert.KernelIdeal.KValue.result_eq m ρ c), (h c).2⟩)
      (Cert.KernelIdeal.RunV.run_result (F := Ideal) m ρ)
  · refine (θ_run (Cert.ReferenceIdeal.defs (F := Ideal)) _ _).mono (fun r h c => ⟨(h c).1.trans ?_, (h c).2⟩)
      (Cert.ReferenceIdeal.RunP.run (F := Ideal) m' ρ')
    obtain ⟨e0, e1, e2, e3, e4, e5, e6, e7, e8, e9⟩ := hagree c
    beta_reduce
    rw [Cert.ReferenceIdeal.RefValue.result_eq, e0, e1, e2, e3, e4, e5, e6, e7, e8, e9]
    unfold Cert.KernelIdeal.KValue.score Cert.KernelIdeal.KValue.emb
    rw [Cert.GcnLaw.emb_eq, Cert.GcnLaw.emb_eq]
    exact (Cert.DecodeLaw.decode_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
